-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v200) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x16 : Shape := ⟨2, ![100000, 16]⟩
abbrev S2x1600000 : Shape := ⟨2, ![2, 1600000]⟩
abbrev S100000 : Shape := ⟨1, ![100000]⟩
abbrev S4x48x48 : Shape := ⟨3, ![4, 48, 48]⟩
abbrev S4x48 : Shape := ⟨2, ![4, 48]⟩
abbrev S_ : Shape := ⟨0, ![]⟩

class Facts : Prop where
  bcast_S_S100000x16 : S_.BroadcastsInDim S100000x16 (![] : Fin 0 → Fin S100000x16.rank)
  reducesTo_S100000x16_S_d0_1 : S100000x16.ReducesTo [0, 1] S_
  h_S_ : 0 < S_.numel
  bcast_S_S4x48x48 : S_.BroadcastsInDim S4x48x48 (![] : Fin 0 → Fin S4x48x48.rank)
  reducesTo_S4x48x48_S_d0_1_2 : S4x48x48.ReducesTo [0, 1, 2] S_
  bcast_S_S4x48 : S_.BroadcastsInDim S4x48 (![] : Fin 0 → Fin S4x48.rank)
  reducesTo_S4x48_S_d0_1 : S4x48.ReducesTo [0, 1] S_

variable [Facts]

def fn_part1 {F : FTy → Type} [FloatOps F] (main_arg6 : FVec F S4x48 .f32) (main_v13 : IVec S_ 1) (main_v16 : IVec S4x48x48 1) : IVec S_ 1 :=
  let main_c_5 : IVec S_ 1 := constantI S_ 1 1#1
  let main_v17 : IVec S_ 1 := (fun x v => Host.reduce IntOp.andi x v reducesTo_S4x48x48_S_d0_1_2 h_S_) main_v16 main_c_5
  let main_v18 : IVec S_ 1 := andi main_v13 main_v17
  let main_v19 : FVec F S4x48 .f32 := Host.absf main_arg6
  let main_cst_6 : FVec F S_ .f32 := constant S_ .f32 0x7F800000#32
  let main_v20 : FVec F S4x48 .f32 := broadcastInDim S4x48 ![] bcast_S_S4x48 main_cst_6
  let main_v21 : IVec S4x48 1 := cmpf .olt main_v19 main_v20
  let main_c_7 : IVec S_ 1 := constantI S_ 1 1#1
  let main_v22 : IVec S_ 1 := (fun x v => Host.reduce IntOp.andi x v reducesTo_S4x48_S_d0_1 h_S_) main_v21 main_c_7
  let main_v23 : IVec S_ 1 := andi main_v18 main_v22
  main_v23

def fn {F : FTy → Type} [FloatOps F] (main_arg0 : FVec F S100000x16 .f32) (main_arg1 : IVec S2x1600000 32) (main_arg2 : FVec F S100000x16 .f32) (main_arg3 : FVec F S100000x16 .f32) (main_arg4 : IVec S100000 1) (main_arg5 : FVec F S4x48x48 .f32) (main_arg6 : FVec F S4x48 .f32) : IVec S_ 1 :=
  let main_v0 : FVec F S100000x16 .f32 := Host.absf main_arg0
  let main_cst : FVec F S_ .f32 := constant S_ .f32 0x7F800000#32
  let main_v1 : FVec F S100000x16 .f32 := broadcastInDim S100000x16 ![] bcast_S_S100000x16 main_cst
  let main_v2 : IVec S100000x16 1 := cmpf .olt main_v0 main_v1
  let main_c : IVec S_ 1 := constantI S_ 1 1#1
  let main_v3 : IVec S_ 1 := (fun x v => Host.reduce IntOp.andi x v reducesTo_S100000x16_S_d0_1 h_S_) main_v2 main_c
  let main_v4 : FVec F S100000x16 .f32 := Host.absf main_arg2
  let main_cst_0 : FVec F S_ .f32 := constant S_ .f32 0x7F800000#32
  let main_v5 : FVec F S100000x16 .f32 := broadcastInDim S100000x16 ![] bcast_S_S100000x16 main_cst_0
  let main_v6 : IVec S100000x16 1 := cmpf .olt main_v4 main_v5
  let main_c_1 : IVec S_ 1 := constantI S_ 1 1#1
  let main_v7 : IVec S_ 1 := (fun x v => Host.reduce IntOp.andi x v reducesTo_S100000x16_S_d0_1 h_S_) main_v6 main_c_1
  let main_v8 : IVec S_ 1 := andi main_v3 main_v7
  let main_v9 : FVec F S100000x16 .f32 := Host.absf main_arg3
  let main_cst_2 : FVec F S_ .f32 := constant S_ .f32 0x7F800000#32
  let main_v10 : FVec F S100000x16 .f32 := broadcastInDim S100000x16 ![] bcast_S_S100000x16 main_cst_2
  let main_v11 : IVec S100000x16 1 := cmpf .olt main_v9 main_v10
  let main_c_3 : IVec S_ 1 := constantI S_ 1 1#1
  let main_v12 : IVec S_ 1 := (fun x v => Host.reduce IntOp.andi x v reducesTo_S100000x16_S_d0_1 h_S_) main_v11 main_c_3
  let main_v13 : IVec S_ 1 := andi main_v8 main_v12
  let main_v14 : FVec F S4x48x48 .f32 := Host.absf main_arg5
  let main_cst_4 : FVec F S_ .f32 := constant S_ .f32 0x7F800000#32
  let main_v15 : FVec F S4x48x48 .f32 := broadcastInDim S4x48x48 ![] bcast_S_S4x48x48 main_cst_4
  let main_v16 : IVec S4x48x48 1 := cmpf .olt main_v14 main_v15
  fn_part1 (F := F) main_arg6 main_v13 main_v16
-- ==== Kernel.lean ====
abbrev S100000x16 : Shape := ⟨2, ![100000, 16]⟩
abbrev S2x1600000 : Shape := ⟨2, ![2, 1600000]⟩
abbrev S100000 : Shape := ⟨1, ![100000]⟩
abbrev S4x48x48 : Shape := ⟨3, ![4, 48, 48]⟩
abbrev S4x48 : Shape := ⟨2, ![4, 48]⟩
abbrev S1x1600000 : Shape := ⟨2, ![1, 1600000]⟩
abbrev S1600000 : Shape := ⟨1, ![1600000]⟩
abbrev S1x48x48 : Shape := ⟨3, ![1, 48, 48]⟩
abbrev S48x48 : Shape := ⟨2, ![48, 48]⟩
abbrev S1x48 : Shape := ⟨2, ![1, 48]⟩
abbrev S48 : Shape := ⟨1, ![48]⟩
abbrev S_ : Shape := ⟨0, ![]⟩
abbrev S1600000x1 : Shape := ⟨2, ![1600000, 1]⟩
abbrev S100000x1 : Shape := ⟨2, ![100000, 1]⟩
abbrev S100000x48 : Shape := ⟨2, ![100000, 48]⟩
abbrev S4000x16 : Shape := ⟨2, ![4000, 16]⟩
abbrev S4000x1 : Shape := ⟨2, ![4000, 1]⟩
abbrev S4000x48 : Shape := ⟨2, ![4000, 48]⟩
abbrev S16x48 : Shape := ⟨2, ![16, 48]⟩
abbrev S1600000x48 : Shape := ⟨2, ![1600000, 48]⟩

abbrev nBuf : Space → Nat
  | .hbm => 43
  | .vmem => 20
  | .smem => 0
  | _ => 0

abbrev bufTy : (tb : Table) → Fin (tcTables nBuf tb) → BufTy
  | .hbm, ⟨0, _⟩ => ⟨S100000x16, .f32⟩
  | .hbm, ⟨1, _⟩ => ⟨S2x1600000, .i32⟩
  | .hbm, ⟨2, _⟩ => ⟨S100000x16, .f32⟩
  | .hbm, ⟨3, _⟩ => ⟨S100000x16, .f32⟩
  | .hbm, ⟨4, _⟩ => ⟨S100000, .i1⟩
  | .hbm, ⟨5, _⟩ => ⟨S4x48x48, .f32⟩
  | .hbm, ⟨6, _⟩ => ⟨S4x48, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S1x48x48, .f32⟩
  | .hbm, ⟨12, _⟩ => ⟨S48x48, .f32⟩
  | .hbm, ⟨13, _⟩ => ⟨S48x48, .f32⟩
  | .hbm, ⟨14, _⟩ => ⟨S1x48, .f32⟩
  | .hbm, ⟨15, _⟩ => ⟨S48, .f32⟩
  | .hbm, ⟨16, _⟩ => ⟨S1x48, .f32⟩
  | .hbm, ⟨17, _⟩ => ⟨S_, .f32⟩
  | .hbm, ⟨18, _⟩ => ⟨S1600000, .f32⟩
  | .hbm, ⟨19, _⟩ => ⟨S_, .f32⟩
  | .hbm, ⟨20, _⟩ => ⟨S100000, .f32⟩
  | .hbm, ⟨21, _⟩ => ⟨S1600000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x48, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x48, .f32⟩
  | .hbm, ⟨38, _⟩ => ⟨S_, .f32⟩
  | .hbm, ⟨39, _⟩ => ⟨S100000x48, .f32⟩
  | .hbm, ⟨40, _⟩ => ⟨S1600000x1, .i32⟩
  | .hbm, ⟨41, _⟩ => ⟨S100000x48, .f32⟩
  | .hbm, ⟨42, _⟩ => ⟨S100000x48, .f32⟩
  | .local _ .vmem, ⟨0, _⟩ => ⟨S4000x16, .f32⟩
  | .local _ .vmem, ⟨1, _⟩ => ⟨S4000x16, .f32⟩
  | .local _ .vmem, ⟨2, _⟩ => ⟨S4000x16, .f32⟩
  | .local _ .vmem, ⟨3, _⟩ => ⟨S4000x16, .f32⟩
  | .local _ .vmem, ⟨4, _⟩ => ⟨S4000x16, .f32⟩
  | .local _ .vmem, ⟨5, _⟩ => ⟨S4000x16, .f32⟩
  | .local _ .vmem, ⟨6, _⟩ => ⟨S48x48, .f32⟩
  | .local _ .vmem, ⟨7, _⟩ => ⟨S4000x1, .f32⟩
  | .local _ .vmem, ⟨8, _⟩ => ⟨S4000x1, .f32⟩
  | .local _ .vmem, ⟨9, _⟩ => ⟨S4000x48, .f32⟩
  | .local _ .vmem, ⟨10, _⟩ => ⟨S4000x48, .f32⟩
  | .local _ .vmem, ⟨11, _⟩ => ⟨S4000x48, .f32⟩
  | .local _ .vmem, ⟨12, _⟩ => ⟨S4000x48, .f32⟩
  | .local _ .vmem, ⟨13, _⟩ => ⟨S4000x48, .f32⟩
  | .local _ .vmem, ⟨14, _⟩ => ⟨S4000x48, .f32⟩
  | .local _ .vmem, ⟨15, _⟩ => ⟨S4000x1, .f32⟩
  | .local _ .vmem, ⟨16, _⟩ => ⟨S4000x1, .f32⟩
  | .local _ .vmem, ⟨17, _⟩ => ⟨S1x48, .f32⟩
  | .local _ .vmem, ⟨18, _⟩ => ⟨S4000x48, .f32⟩
  | .local _ .vmem, ⟨19, _⟩ => ⟨S4000x48, .f32⟩
  | _, _ => ⟨S100000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c : Ref sig .tc := ⟨.hbm, 29, rfl⟩
abbrev main_v19 : Ref sig .tc := ⟨.hbm, 30, rfl⟩
abbrev main_v20 : Ref sig .tc := ⟨.hbm, 31, rfl⟩
abbrev main_c_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg4_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S48x48 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4000x48 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x48 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x48 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x48 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x48 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  slices_S4x48x48_S1x48x48_3_0_0 : S4x48x48.Slices ![3, 0, 0] S1x48x48
  shapeCasts_S1x48x48_S48x48 : S1x48x48.ShapeCasts S48x48
  transposes_S48x48_S48x48_1_0 : S48x48.Transposes [1, 0] S48x48
  slices_S4x48_S1x48_3_0 : S4x48.Slices ![3, 0] S1x48
  shapeCasts_S1x48_S48 : S1x48.ShapeCasts S48
  shapeCasts_S48_S1x48 : S48.ShapeCasts S1x48
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S4000x16_S4000x16_0_0 : ∀ a, (![0, 0] : Fin 2 → Nat) a + S4000x16.size a ≤ S4000x16.size a
  h_S4000x16 : 0 < S4000x16.numel
  bitsLt_bf16_f32 : FTy.bits .bf16 < FTy.bits .f32
  inb_S48x48_S16x48_0_0 : ∀ a, (![0, 0] : Fin 2 → Nat) a + S16x48.size a ≤ S48x48.size a
  h_S16x48 : 0 < S16x48.numel
  shapeCasts_S16x48_S16x48 : S16x48.ShapeCasts S16x48
  inb_S48x48_S16x48_16_0 : ∀ a, (![16, 0] : Fin 2 → Nat) a + S16x48.size a ≤ S48x48.size a
  inb_S48x48_S16x48_32_0 : ∀ a, (![32, 0] : Fin 2 → Nat) a + S16x48.size a ≤ S48x48.size a
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x48 : S4000x1.Broadcasts S4000x48
  inb_S4000x48_S4000x48_0_0 : ∀ a, (![0, 0] : Fin 2 → Nat) a + S4000x48.size a ≤ S4000x48.size a
  h_S4000x48 : 0 < S4000x48.numel
  bcast_S_S100000x48 : S_.BroadcastsInDim S100000x48 (![] : Fin 0 → Fin S100000x48.rank)
  shapeCasts_S4000x48_S4000x48 : S4000x48.ShapeCasts S4000x48
  inb_S1x48_S1x48_0_0 : ∀ a, (![0, 0] : Fin 2 → Nat) a + S1x48.size a ≤ S1x48.size a
  h_S1x48 : 0 < S1x48.numel
  shapeCasts_S1x48_S1x48 : S1x48.ShapeCasts S1x48
  broadcasts_S1x48_S4000x48 : S1x48.Broadcasts S4000x48
  scatter_S100000_S1600000x1_S1600000_n_0_0_1_wf : ScatterDims.WF S100000 S1600000x1 S1600000 [] [0] [0] 1
  dot_S4000x16_S16x48_S4000x48_1_0_0_1_n_n_wf : DotDims.WF S4000x16 S16x48 S4000x48 [1] [0] [0] [1] [] []
  gather_S100000x48_S1600000x1_S1600000x48_1_0_n_n_0_1_148_wf : GatherDims.WF S100000x48 S1600000x1 S1600000x48 [1] [0] [] [0] [] 1 ![1, 48]
  scatter_S100000x48_S1600000x1_S1600000x48_1_0_0_1_wf : ScatterDims.WF S100000x48 S1600000x1 S1600000x48 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x16.size a ≤ S100000x16.size a
  hwx0_0 : ∀ i : grid0.Coords, EltTy.bits .f32 = 32 ∨ (Rect.block (s := S100000x16) S4000x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x16.size a ≤ S100000x16.size a
  hwx0_1 : ∀ i : grid0.Coords, EltTy.bits .f32 = 32 ∨ (Rect.block (s := S100000x16) S4000x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x16.size a ≤ S100000x16.size a
  hwx0_2 : ∀ i : grid0.Coords, EltTy.bits .f32 = 32 ∨ (Rect.block (s := S100000x16) S4000x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S48x48.size a ≤ S48x48.size a
  hwx0_3 : ∀ i : grid0.Coords, EltTy.bits .f32 = 32 ∨ (Rect.block (s := S48x48) S48x48.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x1.size a ≤ S100000x1.size a
  hwx0_4 : ∀ i : grid0.Coords, EltTy.bits .f32 = 32 ∨ (Rect.block (s := S100000x1) S4000x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x48.size a ≤ S100000x48.size a
  hwx0_5 : ∀ i : grid0.Coords, EltTy.bits .f32 = 32 ∨ (Rect.block (s := S100000x48) S4000x48.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x48.size a ≤ S100000x48.size a
  hwx1_0 : ∀ i : grid1.Coords, EltTy.bits .f32 = 32 ∨ (Rect.block (s := S100000x48) S4000x48.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x48.size a ≤ S100000x48.size a
  hwx1_1 : ∀ i : grid1.Coords, EltTy.bits .f32 = 32 ∨ (Rect.block (s := S100000x48) S4000x48.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x48.size a ≤ S1x48.size a
  hwx1_3 : ∀ i : grid1.Coords, EltTy.bits .f32 = 32 ∨ (Rect.block (s := S1x48) S1x48.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x48.size a ≤ S100000x48.size a
  hwx1_4 : ∀ i : grid1.Coords, EltTy.bits .f32 = 32 ∨ (Rect.block (s := S100000x48) S4000x48.size (cc1_transform_4 i) (hinb1_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S4000x16_S16x48_S4000x48_1_0_0_1_n_n : DotDims S4000x16 S16x48 S4000x48 where
  lhsContracting := [1]
  rhsContracting := [0]
  lhsNonContracting := [0]
  rhsNonContracting := [1]
  lhsBatch := []
  rhsBatch := []
  wf := dot_S4000x16_S16x48_S4000x48_1_0_0_1_n_n_wf
def gather_S100000x48_S1600000x1_S1600000x48_1_0_n_n_0_1_148 : GatherDims S100000x48 S1600000x1 S1600000x48 where
  offsetDims := [1]
  collapsedSliceDims := [0]
  operandBatchingDims := []
  startIndicesBatchingDims := []
  startIndexMap := [0]
  indexVectorDim := 1
  sliceSizes := ![1, 48]
  wf := gather_S100000x48_S1600000x1_S1600000x48_1_0_n_n_0_1_148_wf
def scatter_S100000x48_S1600000x1_S1600000x48_1_0_0_1 : ScatterDims S100000x48 S1600000x1 S1600000x48 where
  updateWindowDims := [1]
  insertedWindowDims := [0]
  scatterDimsToOperandDims := [0]
  indexVectorDim := 1
  wf := scatter_S100000x48_S1600000x1_S1600000x48_1_0_0_1_wf

abbrev win0_0 : Pipeline.Window sig grid0 :=
  Pipeline.Window.ofSpec (Memref.whole main_arg2) S4000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S4000x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S48x48.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S4000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v18) S4000x48.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v28) S4000x48.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S4000x48.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9) S1x48.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S4000x48.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x16 : Shape := ⟨2, ![100000, 16]⟩
abbrev S2x1600000 : Shape := ⟨2, ![2, 1600000]⟩
abbrev S100000 : Shape := ⟨1, ![100000]⟩
abbrev S4x48x48 : Shape := ⟨3, ![4, 48, 48]⟩
abbrev S4x48 : Shape := ⟨2, ![4, 48]⟩
abbrev S100000x48 : Shape := ⟨2, ![100000, 48]⟩
abbrev S1x1600000 : Shape := ⟨2, ![1, 1600000]⟩
abbrev S1600000 : Shape := ⟨1, ![1600000]⟩
abbrev S1x48x48 : Shape := ⟨3, ![1, 48, 48]⟩
abbrev S48x48 : Shape := ⟨2, ![48, 48]⟩
abbrev S1x48 : Shape := ⟨2, ![1, 48]⟩
abbrev S48 : Shape := ⟨1, ![48]⟩
abbrev S_ : Shape := ⟨0, ![]⟩
abbrev S1600000x1 : Shape := ⟨2, ![1600000, 1]⟩
abbrev S1600000x48 : Shape := ⟨2, ![1600000, 48]⟩
abbrev S100000x1 : Shape := ⟨2, ![100000, 1]⟩

abbrev nBuf : Space → Nat
  | .hbm => 248
  | .vmem => 0
  | .smem => 0
  | _ => 0

abbrev hbmTy0_0 (i : Nat) : BufTy := match i % 128 with
  | 0 => ⟨S100000x16, .f32⟩
  | 1 => ⟨S2x1600000, .i32⟩
  | 2 => ⟨S100000x16, .f32⟩
  | 3 => ⟨S100000x16, .f32⟩
  | 4 => ⟨S100000, .i1⟩
  | 5 => ⟨S4x48x48, .f32⟩
  | 6 => ⟨S4x48, .f32⟩
  | 7 => ⟨S100000x48, .f32⟩
  | 8 => ⟨S1x1600000, .i32⟩
  | 9 => ⟨S1600000, .i32⟩
  | 10 => ⟨S1x1600000, .i32⟩
  | 11 => ⟨S1600000, .i32⟩
  | 12 => ⟨S1x48x48, .f32⟩
  | 13 => ⟨S48x48, .f32⟩
  | 14 => ⟨S1x48, .f32⟩
  | 15 => ⟨S48, .f32⟩
  | 16 => ⟨S48x48, .f32⟩
  | 17 => ⟨S100000x48, .f32⟩
  | 18 => ⟨S_, .f32⟩
  | 19 => ⟨S1600000, .f32⟩
  | 20 => ⟨S_, .f32⟩
  | 21 => ⟨S100000, .f32⟩
  | 22 => ⟨S1600000x1, .i32⟩
  | 23 => ⟨S100000, .f32⟩
  | 24 => ⟨S_, .f32⟩
  | 25 => ⟨S100000, .f32⟩
  | 26 => ⟨S100000, .f32⟩
  | 27 => ⟨S100000, .f32⟩
  | 28 => ⟨S_, .i32⟩
  | 29 => ⟨S1600000, .i32⟩
  | 30 => ⟨S1600000, .i1⟩
  | 31 => ⟨S_, .i32⟩
  | 32 => ⟨S1600000, .i32⟩
  | 33 => ⟨S1600000, .i32⟩
  | 34 => ⟨S1600000, .i32⟩
  | 35 => ⟨S1600000x1, .i32⟩
  | 36 => ⟨S1600000, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000, .f32⟩
  | 46 => ⟨S1600000, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1600000x48, .f32⟩
  | 56 => ⟨S1600000x1, .f32⟩
  | 57 => ⟨S1600000x48, .f32⟩
  | 58 => ⟨S1600000x48, .f32⟩
  | 59 => ⟨S_, .f32⟩
  | 60 => ⟨S100000x48, .f32⟩
  | 61 => ⟨S1600000x1, .i32⟩
  | 62 => ⟨S100000x48, .f32⟩
  | 63 => ⟨S100000, .f32⟩
  | 64 => ⟨S100000x1, .f32⟩
  | 65 => ⟨S100000x48, .f32⟩
  | 66 => ⟨S100000x48, .f32⟩
  | 67 => ⟨S100000x48, .f32⟩
  | 68 => ⟨S1x48, .f32⟩
  | 69 => ⟨S100000x48, .f32⟩
  | 70 => ⟨S100000x48, .f32⟩
  | 71 => ⟨S1x48x48, .f32⟩
  | 72 => ⟨S48x48, .f32⟩
  | 73 => ⟨S1x48, .f32⟩
  | 74 => ⟨S48, .f32⟩
  | 75 => ⟨S48x48, .f32⟩
  | 76 => ⟨S100000x48, .f32⟩
  | 77 => ⟨S_, .f32⟩
  | 78 => ⟨S1600000, .f32⟩
  | 79 => ⟨S_, .f32⟩
  | 80 => ⟨S100000, .f32⟩
  | 81 => ⟨S1600000x1, .i32⟩
  | 82 => ⟨S100000, .f32⟩
  | 83 => ⟨S_, .f32⟩
  | 84 => ⟨S100000, .f32⟩
  | 85 => ⟨S100000, .f32⟩
  | 86 => ⟨S100000, .f32⟩
  | 87 => ⟨S_, .i32⟩
  | 88 => ⟨S1600000, .i32⟩
  | 89 => ⟨S1600000, .i1⟩
  | 90 => ⟨S_, .i32⟩
  | 91 => ⟨S1600000, .i32⟩
  | 92 => ⟨S1600000, .i32⟩
  | 93 => ⟨S1600000, .i32⟩
  | 94 => ⟨S1600000x1, .i32⟩
  | 95 => ⟨S1600000, .f32⟩
  | 96 => ⟨S_, .i32⟩
  | 97 => ⟨S1600000, .i32⟩
  | 98 => ⟨S1600000, .i1⟩
  | 99 => ⟨S_, .i32⟩
  | 100 => ⟨S1600000, .i32⟩
  | 101 => ⟨S1600000, .i32⟩
  | 102 => ⟨S1600000, .i32⟩
  | 103 => ⟨S1600000x1, .i32⟩
  | 104 => ⟨S1600000, .f32⟩
  | 105 => ⟨S1600000, .f32⟩
  | 106 => ⟨S_, .i32⟩
  | 107 => ⟨S1600000, .i32⟩
  | 108 => ⟨S1600000, .i1⟩
  | 109 => ⟨S_, .i32⟩
  | 110 => ⟨S1600000, .i32⟩
  | 111 => ⟨S1600000, .i32⟩
  | 112 => ⟨S1600000, .i32⟩
  | 113 => ⟨S1600000x1, .i32⟩
  | 114 => ⟨S1600000x48, .f32⟩
  | 115 => ⟨S1600000x1, .f32⟩
  | 116 => ⟨S1600000x48, .f32⟩
  | 117 => ⟨S1600000x48, .f32⟩
  | 118 => ⟨S_, .f32⟩
  | 119 => ⟨S100000x48, .f32⟩
  | 120 => ⟨S1600000x1, .i32⟩
  | 121 => ⟨S100000x48, .f32⟩
  | 122 => ⟨S100000, .f32⟩
  | 123 => ⟨S100000x1, .f32⟩
  | 124 => ⟨S100000x48, .f32⟩
  | 125 => ⟨S100000x48, .f32⟩
  | 126 => ⟨S100000x48, .f32⟩
  | 127 => ⟨S1x48, .f32⟩
  | _ => ⟨S100000x16, .f32⟩

abbrev hbmTy0_1 (i : Nat) : BufTy := match i % 128 with
  | 0 => ⟨S100000x48, .f32⟩
  | 1 => ⟨S100000x48, .f32⟩
  | 2 => ⟨S1x48x48, .f32⟩
  | 3 => ⟨S48x48, .f32⟩
  | 4 => ⟨S1x48, .f32⟩
  | 5 => ⟨S48, .f32⟩
  | 6 => ⟨S48x48, .f32⟩
  | 7 => ⟨S100000x48, .f32⟩
  | 8 => ⟨S_, .f32⟩
  | 9 => ⟨S1600000, .f32⟩
  | 10 => ⟨S_, .f32⟩
  | 11 => ⟨S100000, .f32⟩
  | 12 => ⟨S1600000x1, .i32⟩
  | 13 => ⟨S100000, .f32⟩
  | 14 => ⟨S_, .f32⟩
  | 15 => ⟨S100000, .f32⟩
  | 16 => ⟨S100000, .f32⟩
  | 17 => ⟨S100000, .f32⟩
  | 18 => ⟨S_, .i32⟩
  | 19 => ⟨S1600000, .i32⟩
  | 20 => ⟨S1600000, .i1⟩
  | 21 => ⟨S_, .i32⟩
  | 22 => ⟨S1600000, .i32⟩
  | 23 => ⟨S1600000, .i32⟩
  | 24 => ⟨S1600000, .i32⟩
  | 25 => ⟨S1600000x1, .i32⟩
  | 26 => ⟨S1600000, .f32⟩
  | 27 => ⟨S_, .i32⟩
  | 28 => ⟨S1600000, .i32⟩
  | 29 => ⟨S1600000, .i1⟩
  | 30 => ⟨S_, .i32⟩
  | 31 => ⟨S1600000, .i32⟩
  | 32 => ⟨S1600000, .i32⟩
  | 33 => ⟨S1600000, .i32⟩
  | 34 => ⟨S1600000x1, .i32⟩
  | 35 => ⟨S1600000, .f32⟩
  | 36 => ⟨S1600000, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000x48, .f32⟩
  | 46 => ⟨S1600000x1, .f32⟩
  | 47 => ⟨S1600000x48, .f32⟩
  | 48 => ⟨S1600000x48, .f32⟩
  | 49 => ⟨S_, .f32⟩
  | 50 => ⟨S100000x48, .f32⟩
  | 51 => ⟨S1600000x1, .i32⟩
  | 52 => ⟨S100000x48, .f32⟩
  | 53 => ⟨S100000, .f32⟩
  | 54 => ⟨S100000x1, .f32⟩
  | 55 => ⟨S100000x48, .f32⟩
  | 56 => ⟨S100000x48, .f32⟩
  | 57 => ⟨S100000x48, .f32⟩
  | 58 => ⟨S1x48, .f32⟩
  | 59 => ⟨S100000x48, .f32⟩
  | 60 => ⟨S100000x48, .f32⟩
  | 61 => ⟨S1x48x48, .f32⟩
  | 62 => ⟨S48x48, .f32⟩
  | 63 => ⟨S1x48, .f32⟩
  | 64 => ⟨S48, .f32⟩
  | 65 => ⟨S48x48, .f32⟩
  | 66 => ⟨S100000x48, .f32⟩
  | 67 => ⟨S_, .f32⟩
  | 68 => ⟨S1600000, .f32⟩
  | 69 => ⟨S_, .f32⟩
  | 70 => ⟨S100000, .f32⟩
  | 71 => ⟨S1600000x1, .i32⟩
  | 72 => ⟨S100000, .f32⟩
  | 73 => ⟨S_, .f32⟩
  | 74 => ⟨S100000, .f32⟩
  | 75 => ⟨S100000, .f32⟩
  | 76 => ⟨S100000, .f32⟩
  | 77 => ⟨S_, .i32⟩
  | 78 => ⟨S1600000, .i32⟩
  | 79 => ⟨S1600000, .i1⟩
  | 80 => ⟨S_, .i32⟩
  | 81 => ⟨S1600000, .i32⟩
  | 82 => ⟨S1600000, .i32⟩
  | 83 => ⟨S1600000, .i32⟩
  | 84 => ⟨S1600000x1, .i32⟩
  | 85 => ⟨S1600000, .f32⟩
  | 86 => ⟨S_, .i32⟩
  | 87 => ⟨S1600000, .i32⟩
  | 88 => ⟨S1600000, .i1⟩
  | 89 => ⟨S_, .i32⟩
  | 90 => ⟨S1600000, .i32⟩
  | 91 => ⟨S1600000, .i32⟩
  | 92 => ⟨S1600000, .i32⟩
  | 93 => ⟨S1600000x1, .i32⟩
  | 94 => ⟨S1600000, .f32⟩
  | 95 => ⟨S1600000, .f32⟩
  | 96 => ⟨S_, .i32⟩
  | 97 => ⟨S1600000, .i32⟩
  | 98 => ⟨S1600000, .i1⟩
  | 99 => ⟨S_, .i32⟩
  | 100 => ⟨S1600000, .i32⟩
  | 101 => ⟨S1600000, .i32⟩
  | 102 => ⟨S1600000, .i32⟩
  | 103 => ⟨S1600000x1, .i32⟩
  | 104 => ⟨S1600000x48, .f32⟩
  | 105 => ⟨S1600000x1, .f32⟩
  | 106 => ⟨S1600000x48, .f32⟩
  | 107 => ⟨S1600000x48, .f32⟩
  | 108 => ⟨S_, .f32⟩
  | 109 => ⟨S100000x48, .f32⟩
  | 110 => ⟨S1600000x1, .i32⟩
  | 111 => ⟨S100000x48, .f32⟩
  | 112 => ⟨S100000, .f32⟩
  | 113 => ⟨S100000x1, .f32⟩
  | 114 => ⟨S100000x48, .f32⟩
  | 115 => ⟨S100000x48, .f32⟩
  | 116 => ⟨S100000x48, .f32⟩
  | 117 => ⟨S1x48, .f32⟩
  | 118 => ⟨S100000x48, .f32⟩
  | 119 => ⟨S100000x48, .f32⟩
  | _ => ⟨S100000x16, .f32⟩

abbrev hbmTy (i : Nat) : BufTy := match i / 128 with
  | 0 => hbmTy0_0 i
  | 1 => hbmTy0_1 i
  | _ => ⟨S100000x16, .f32⟩

abbrev bufTy : (tb : Table) → Fin (tcTables nBuf tb) → BufTy
  | .hbm, ⟨i, _⟩ => hbmTy i
  | _, _ => ⟨S100000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c : Ref sig .tc := ⟨.hbm, 28, rfl⟩
abbrev main_v18 : Ref sig .tc := ⟨.hbm, 29, rfl⟩
abbrev main_v19 : Ref sig .tc := ⟨.hbm, 30, rfl⟩
abbrev main_c_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_3 : Ref sig .tc := ⟨.hbm, 37, rfl⟩
abbrev main_v25 : Ref sig .tc := ⟨.hbm, 38, rfl⟩
abbrev main_v26 : Ref sig .tc := ⟨.hbm, 39, rfl⟩
abbrev main_c_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_5 : Ref sig .tc := ⟨.hbm, 47, rfl⟩
abbrev main_v33 : Ref sig .tc := ⟨.hbm, 48, rfl⟩
abbrev main_v34 : Ref sig .tc := ⟨.hbm, 49, rfl⟩
abbrev main_c_6 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_7 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_8 : Ref sig .tc := ⟨.hbm, 77, rfl⟩
abbrev main_v60 : Ref sig .tc := ⟨.hbm, 78, rfl⟩
abbrev main_cst_9 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_10 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_c_11 : Ref sig .tc := ⟨.hbm, 87, rfl⟩
abbrev main_v67 : Ref sig .tc := ⟨.hbm, 88, rfl⟩
abbrev main_v68 : Ref sig .tc := ⟨.hbm, 89, rfl⟩
abbrev main_c_12 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_c_13 : Ref sig .tc := ⟨.hbm, 96, rfl⟩
abbrev main_v74 : Ref sig .tc := ⟨.hbm, 97, rfl⟩
abbrev main_v75 : Ref sig .tc := ⟨.hbm, 98, rfl⟩
abbrev main_c_14 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_c_15 : Ref sig .tc := ⟨.hbm, 106, rfl⟩
abbrev main_v82 : Ref sig .tc := ⟨.hbm, 107, rfl⟩
abbrev main_v83 : Ref sig .tc := ⟨.hbm, 108, rfl⟩
abbrev main_c_16 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_cst_17 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_cst_18 : Ref sig .tc := ⟨.hbm, 136, rfl⟩
abbrev main_v109 : Ref sig .tc := ⟨.hbm, 137, rfl⟩
abbrev main_cst_19 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_cst_20 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_c_21 : Ref sig .tc := ⟨.hbm, 146, rfl⟩
abbrev main_v116 : Ref sig .tc := ⟨.hbm, 147, rfl⟩
abbrev main_v117 : Ref sig .tc := ⟨.hbm, 148, rfl⟩
abbrev main_c_22 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_c_23 : Ref sig .tc := ⟨.hbm, 155, rfl⟩
abbrev main_v123 : Ref sig .tc := ⟨.hbm, 156, rfl⟩
abbrev main_v124 : Ref sig .tc := ⟨.hbm, 157, rfl⟩
abbrev main_c_24 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_c_25 : Ref sig .tc := ⟨.hbm, 165, rfl⟩
abbrev main_v131 : Ref sig .tc := ⟨.hbm, 166, rfl⟩
abbrev main_v132 : Ref sig .tc := ⟨.hbm, 167, rfl⟩
abbrev main_c_26 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_cst_27 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_v153 : Ref sig .tc := ⟨.hbm, 190, rfl⟩
abbrev main_v154 : Ref sig .tc := ⟨.hbm, 191, rfl⟩
abbrev main_v155 : Ref sig .tc := ⟨.hbm, 192, rfl⟩
abbrev main_v156 : Ref sig .tc := ⟨.hbm, 193, rfl⟩
abbrev main_v157 : Ref sig .tc := ⟨.hbm, 194, rfl⟩
abbrev main_cst_28 : Ref sig .tc := ⟨.hbm, 195, rfl⟩
abbrev main_v158 : Ref sig .tc := ⟨.hbm, 196, rfl⟩
abbrev main_cst_29 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_cst_30 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_c_31 : Ref sig .tc := ⟨.hbm, 205, rfl⟩
abbrev main_v165 : Ref sig .tc := ⟨.hbm, 206, rfl⟩
abbrev main_v166 : Ref sig .tc := ⟨.hbm, 207, rfl⟩
abbrev main_c_32 : Ref sig .tc := ⟨.hbm, 208, rfl⟩
abbrev main_v167 : Ref sig .tc := ⟨.hbm, 209, rfl⟩
abbrev main_v168 : Ref sig .tc := ⟨.hbm, 210, rfl⟩
abbrev main_v169 : Ref sig .tc := ⟨.hbm, 211, rfl⟩
abbrev main_v170 : Ref sig .tc := ⟨.hbm, 212, rfl⟩
abbrev main_v171 : Ref sig .tc := ⟨.hbm, 213, rfl⟩
abbrev main_c_33 : Ref sig .tc := ⟨.hbm, 214, rfl⟩
abbrev main_v172 : Ref sig .tc := ⟨.hbm, 215, rfl⟩
abbrev main_v173 : Ref sig .tc := ⟨.hbm, 216, rfl⟩
abbrev main_c_34 : Ref sig .tc := ⟨.hbm, 217, rfl⟩
abbrev main_v174 : Ref sig .tc := ⟨.hbm, 218, rfl⟩
abbrev main_v175 : Ref sig .tc := ⟨.hbm, 219, rfl⟩
abbrev main_v176 : Ref sig .tc := ⟨.hbm, 220, rfl⟩
abbrev main_v177 : Ref sig .tc := ⟨.hbm, 221, rfl⟩
abbrev main_v178 : Ref sig .tc := ⟨.hbm, 222, rfl⟩
abbrev main_v179 : Ref sig .tc := ⟨.hbm, 223, rfl⟩
abbrev main_c_35 : Ref sig .tc := ⟨.hbm, 224, rfl⟩
abbrev main_v180 : Ref sig .tc := ⟨.hbm, 225, rfl⟩
abbrev main_v181 : Ref sig .tc := ⟨.hbm, 226, rfl⟩
abbrev main_c_36 : Ref sig .tc := ⟨.hbm, 227, rfl⟩
abbrev main_v182 : Ref sig .tc := ⟨.hbm, 228, rfl⟩
abbrev main_v183 : Ref sig .tc := ⟨.hbm, 229, rfl⟩
abbrev main_v184 : Ref sig .tc := ⟨.hbm, 230, rfl⟩
abbrev main_v185 : Ref sig .tc := ⟨.hbm, 231, rfl⟩
abbrev main_v186 : Ref sig .tc := ⟨.hbm, 232, rfl⟩
abbrev main_v187 : Ref sig .tc := ⟨.hbm, 233, rfl⟩
abbrev main_v188 : Ref sig .tc := ⟨.hbm, 234, rfl⟩
abbrev main_v189 : Ref sig .tc := ⟨.hbm, 235, rfl⟩
abbrev main_cst_37 : Ref sig .tc := ⟨.hbm, 236, rfl⟩
abbrev main_v190 : Ref sig .tc := ⟨.hbm, 237, rfl⟩
abbrev main_v191 : Ref sig .tc := ⟨.hbm, 238, rfl⟩
abbrev main_v192 : Ref sig .tc := ⟨.hbm, 239, rfl⟩
abbrev main_v193 : Ref sig .tc := ⟨.hbm, 240, rfl⟩
abbrev main_v194 : Ref sig .tc := ⟨.hbm, 241, rfl⟩
abbrev main_v195 : Ref sig .tc := ⟨.hbm, 242, rfl⟩
abbrev main_v196 : Ref sig .tc := ⟨.hbm, 243, rfl⟩
abbrev main_v197 : Ref sig .tc := ⟨.hbm, 244, rfl⟩
abbrev main_v198 : Ref sig .tc := ⟨.hbm, 245, rfl⟩
abbrev main_v199 : Ref sig .tc := ⟨.hbm, 246, rfl⟩
abbrev main_v200 : Ref sig .tc := ⟨.hbm, 247, rfl⟩

abbrev nD : Nat := 1
abbrev τ : Topo := Topo.v7x

variable {F : FTy → Type} [FloatOps F]

class Facts₀ : Prop where
  concatenates_S100000x16_S100000x16_S100000x16_S100000x48_d1 : Shape.Concatenates [S100000x16, S100000x16, S100000x16] S100000x48 1
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  slices_S4x48x48_S1x48x48_0_0_0 : S4x48x48.Slices ![0, 0, 0] S1x48x48
  shapeCasts_S1x48x48_S48x48 : S1x48x48.ShapeCasts S48x48
  slices_S4x48_S1x48_0_0 : S4x48.Slices ![0, 0] S1x48
  shapeCasts_S1x48_S48 : S1x48.ShapeCasts S48
  transposes_S48x48_S48x48_1_0 : S48x48.Transposes [1, 0] S48x48
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x48_0_1 : S1600000x1.BroadcastsInDim S1600000x48 (![0, 1] : Fin 2 → Fin S1600000x48.rank)
  bcast_S_S100000x48 : S_.BroadcastsInDim S100000x48 (![] : Fin 0 → Fin S100000x48.rank)
  bcast_S100000_S100000x1_0 : S100000.BroadcastsInDim S100000x1 (![0] : Fin 1 → Fin S100000x1.rank)
  bcast_S100000x1_S100000x48_0_1 : S100000x1.BroadcastsInDim S100000x48 (![0, 1] : Fin 2 → Fin S100000x48.rank)
  bcast_S48_S1x48_1 : S48.BroadcastsInDim S1x48 (![1] : Fin 1 → Fin S1x48.rank)
  bcast_S1x48_S100000x48_0_1 : S1x48.BroadcastsInDim S100000x48 (![0, 1] : Fin 2 → Fin S100000x48.rank)
  slices_S4x48x48_S1x48x48_1_0_0 : S4x48x48.Slices ![1, 0, 0] S1x48x48
  slices_S4x48_S1x48_1_0 : S4x48.Slices ![1, 0] S1x48
  slices_S4x48x48_S1x48x48_2_0_0 : S4x48x48.Slices ![2, 0, 0] S1x48x48
  slices_S4x48_S1x48_2_0 : S4x48.Slices ![2, 0] S1x48
  slices_S4x48x48_S1x48x48_3_0_0 : S4x48x48.Slices ![3, 0, 0] S1x48x48
  slices_S4x48_S1x48_3_0 : S4x48.Slices ![3, 0] S1x48
  dot_S100000x48_S48x48_S100000x48_1_0_0_1_n_n_wf : DotDims.WF S100000x48 S48x48 S100000x48 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x48_S1600000x1_S1600000x48_1_0_n_n_0_1_148_wf : GatherDims.WF S100000x48 S1600000x1 S1600000x48 [1] [0] [] [0] [] 1 ![1, 48]
  scatter_S100000x48_S1600000x1_S1600000x48_1_0_0_1_wf : ScatterDims.WF S100000x48 S1600000x1 S1600000x48 [1] [0] [0] 1

variable [Facts₀]

def dot_S100000x48_S48x48_S100000x48_1_0_0_1_n_n : DotDims S100000x48 S48x48 S100000x48 where
  lhsContracting := [1]
  rhsContracting := [0]
  lhsNonContracting := [0]
  rhsNonContracting := [1]
  lhsBatch := []
  rhsBatch := []
  wf := dot_S100000x48_S48x48_S100000x48_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x48_S1600000x1_S1600000x48_1_0_n_n_0_1_148 : GatherDims S100000x48 S1600000x1 S1600000x48 where
  offsetDims := [1]
  collapsedSliceDims := [0]
  operandBatchingDims := []
  startIndicesBatchingDims := []
  startIndexMap := [0]
  indexVectorDim := 1
  sliceSizes := ![1, 48]
  wf := gather_S100000x48_S1600000x1_S1600000x48_1_0_n_n_0_1_148_wf
def scatter_S100000x48_S1600000x1_S1600000x48_1_0_0_1 : ScatterDims S100000x48 S1600000x1 S1600000x48 where
  updateWindowDims := [1]
  insertedWindowDims := [0]
  scatterDimsToOperandDims := [0]
  indexVectorDim := 1
  wf := scatter_S100000x48_S1600000x1_S1600000x48_1_0_0_1_wf

class Facts : Prop extends Facts₀ where

variable [Facts]
-- ==== Proof.KernelRun.lean ====
/-
  The whole program's run, with the result array named.

  The program is two stretches of host operations and two grids of row blocks.  Every execution terminates, and in the
  final state each core's result array holds what the second grid's write-backs leave in it (the last boundary's
  contents, read at the result's buffer), while the seven argument arrays are as launched.  The run is assembled from
  the same segments as the frame of the program; only the final reading keeps one more buffer, the result's, which is
  an ordinary (unscoped) array and so is among the buffers the last thread state holds.
-/
import proofs.«134983_j39917426049337_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the program on the cores terminates, and every
    final state has the result array at the last boundary's contents and the argument arrays as launched. -/
theorem run_value : θ_run defs (onTc (τ := τ) (main (F := F))) ⟨m, fun _ => 0, ρ⟩ (fun r => ∀ c : Dev nD,
      r.2.mem ((c.tc : Thread nD τ).loc main_v29) = W4 m ρ c (Proc.devRef .tc main_v29)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v29 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Cert.KernelIdeal.RunValue

end
-- ==== Proof.Spec.lean ====
/-
  The two dense node-wise maps of one graph-convolution layer, as functions of whole arrays read index by index.

  `proj`: row r, feature f of the projected and scaled node array is
      (sum_k x[r,k] wt[k,f] + sum_k h[r,k] wt[16+k,f] + sum_k q[r,k] wt[32+k,f]) * d[r]
  -- the product of the row [x | h | q] of 48 features with column f of wt, written as its three blocks of 16, times the
  row's degree factor d[r] (kept as a column of one lane).

  `comb`: row r, feature f of the combined result is  d[r] * (agg[r,f] + y[r,f]) + b[f].
-/
import Idealize.ShloMosaic.PureOps.Ideal
import Idealize.ShloMosaic.Lib.ValueIdx

noncomputable section

namespace Cert.Gcn

open Idealize.ShloMosaic Idealize.ShloMosaic.ValueIdx

abbrev SNx16 : Shape := ⟨2, ![100000, 16]⟩
abbrev SNx48 : Shape := ⟨2, ![100000, 48]⟩
abbrev SNx1 : Shape := ⟨2, ![100000, 1]⟩
abbrev SN : Shape := ⟨1, ![100000]⟩
abbrev SE : Shape := ⟨1, ![1600000]⟩
abbrev SEx1 : Shape := ⟨2, ![1600000, 1]⟩
abbrev SEx48 : Shape := ⟨2, ![1600000, 48]⟩
abbrev S48x48 : Shape := ⟨2, ![48, 48]⟩
abbrev S1x48 : Shape := ⟨2, ![1, 48]⟩
abbrev S48 : Shape := ⟨1, ![48]⟩

/-- Row `k` of the first, second, third block of 16 rows of a 48-row matrix. -/
abbrev blk0 (k : Fin 16) : Fin 48 := ⟨k.val, by omega⟩
abbrev blk1 (k : Fin 16) : Fin 48 := ⟨16 + k.val, by omega⟩
abbrev blk2 (k : Fin 16) : Fin 48 := ⟨32 + k.val, by omega⟩

/-- Entry (r, f) of the projection: three products of 16 terms each, summed, scaled by the row's factor. -/
def projAt (x h q : FVec Ideal SNx16 .f32) (wt : FVec Ideal S48x48 .f32) (d : FVec Ideal SNx1 .f32)
    (r : Fin 100000) (f : Fin 48) : EReal :=
  ((∑ k : Fin 16, x (ix2 r k) * wt (ix2 (blk0 k) f) + ∑ k : Fin 16, h (ix2 r k) * wt (ix2 (blk1 k) f))
    + ∑ k : Fin 16, q (ix2 r k) * wt (ix2 (blk2 k) f)) * d (ix2 r (0 : Fin 1))

/-- The projected, scaled node array. -/
def proj (x h q : FVec Ideal SNx16 .f32) (wt : FVec Ideal S48x48 .f32) (d : FVec Ideal SNx1 .f32) :
    FVec Ideal SNx48 .f32 :=
  fun i => projAt x h q wt d (i 0) (i 1)

/-- Entry (r, f) of the final combination. -/
def combAt (agg y : FVec Ideal SNx48 .f32) (d : FVec Ideal SNx1 .f32) (b : FVec Ideal S1x48 .f32)
    (r : Fin 100000) (f : Fin 48) : EReal :=
  d (ix2 r (0 : Fin 1)) * (agg (ix2 r f) + y (ix2 r f)) + b (ix2 (0 : Fin 1) f)

/-- The combined node array. -/
def comb (agg y : FVec Ideal SNx48 .f32) (d : FVec Ideal SNx1 .f32) (b : FVec Ideal S1x48 .f32) :
    FVec Ideal SNx48 .f32 :=
  fun i => combAt agg y d b (i 0) (i 1)

theorem proj_apply (x h q : FVec Ideal SNx16 .f32) (wt : FVec Ideal S48x48 .f32) (d : FVec Ideal SNx1 .f32)
    (r : Fin 100000) (f : Fin 48) : proj x h q wt d (ix2 r f) = projAt x h q wt d r f := rfl

theorem comb_apply (agg y : FVec Ideal SNx48 .f32) (d : FVec Ideal SNx1 .f32) (b : FVec Ideal S1x48 .f32)
    (r : Fin 100000) (f : Fin 48) : comb agg y d b (ix2 r f) = combAt agg y d b r f := rfl

end Cert.Gcn

end
-- ==== Proof.LibColumnForms.lean ====
/-
  Two layout operations read at an index, for a COLUMN kept after a sum along the rows' lanes (a sum with its axis kept):
  a vector of length a viewed as an a × 1 column, and an a × 1 column broadcast across b lanes.
-/
import Idealize.ShloMosaic.Lib.Pipeline.Value
import Idealize.ShloMosaic.Lib.ValueIdx

noncomputable section

namespace Cert.BoxFilter.ColumnForms

open Idealize.ShloMosaic Idealize.ShloMosaic.ValueIdx

variable {α : Type}

/-- An `[a]` array cast to `[a, 1]` reads, at `(i, u)`, the operand at `i`, whatever the unit coordinate `u`: both
    sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.BoxFilter.ColumnForms

end
-- ==== Proof.ProjBlocks.lean ====
/-
  Region 0 of the layer: the projected, scaled node array as one function of the five arrays it reads.

  The output's block at grid point t is rows 4000 t .. 4000 t + 3999, all 48 features.  Row p of that block, feature f,
  is the product of the row [x | h | q] (three slabs of 16 features, each read from the same rows of its own array)
  with column f of the 48 x 48 weight block (read whole at every point, its three 16-row slabs at row offsets 0, 16, 32),
  times the row's scale factor (a column of one lane, same rows).  At the extended reals a narrowing of the float format
  is the identity and a product accumulated into zero is the plain sum, so the block is the restriction of
  `Cert.Gcn.proj` of the whole arrays to those rows; the 25 blocks tile the 100000 rows.
-/
import proofs.«134983_j39917426049337_2_alg».proof.Proof.Gen.KernelIdeal.Frame
import proofs.«134983_j39917426049337_2_alg».proof.Proof.Spec
import proofs.«134983_j39917426049337_2_alg».proof.Proof.LibColumnForms
import Idealize.ShloMosaic.Lib.Pipeline.Value
import Idealize.ShloMosaic.Lib.ValueIdx
import Idealize.ShloMosaic.PureOps.Ideal.Laws

noncomputable section

namespace Cert.KernelIdeal.ProjValue

open Idealize.ShloMosaic Idealize.ShloMosaic.ValueIdx Idealize.ShloMosaic.TcCoe
open Idealize.SL Idealize.SL.Sem
open Idealize.ShloMosaic.Pipeline (Dat Cfg Window)
open Cert.KernelIdeal Cert.KernelIdeal.Gen
open Cert.Gcn (proj projAt blk0 blk1 blk2)

/-! ## The body's arithmetic at one entry of a block -/

/-- A 4000 x 16 block times a 16 x 48 block, accumulated into zero, read at (p, f): the sum over the 16 shared
    coordinates of the products of the entries. -/
theorem matmul_zero_apply (A : FVec Ideal S4000x16 .bf16) (B : FVec Ideal S16x48 .bf16) (p : Fin 4000) (f : Fin 48) :
    matmul dot_S4000x16_S16x48_S4000x48_1_0_0_1_n_n none A B (constant (F := Ideal) S4000x48 .f32 0x00000000#32) (ix2 p f)
      = ∑ k : Fin 16, A (ix2 p k) * B (ix2 k f) := by
  show FloatOps.matmul _ none A B _ (ix2 p f) = _
  rw [Ideal.matmul_constant_zero_apply,
    ← Equiv.sum_comp (contrEquiv1 dot_S4000x16_S16x48_S4000x48_1_0_0_1_n_n 16 rfl rfl).symm]
  refine Finset.sum_congr rfl fun k _ => ?_
  have ck := contrEquiv1_symm_val dot_S4000x16_S16x48_S4000x48_1_0_0_1_n_n 16 rfl rfl k
  have hl : dot_S4000x16_S16x48_S4000x48_1_0_0_1_n_n.lhsIdx (ix2 p f)
      ((contrEquiv1 dot_S4000x16_S16x48_S4000x48_1_0_0_1_n_n 16 rfl rfl).symm k) = ix2 p k := by
    funext ax; apply Fin.ext
    match ax with
    | ⟨0, _⟩ => simp [DotDims.lhsIdx, dot_S4000x16_S16x48_S4000x48_1_0_0_1_n_n]; rfl
    | ⟨1, _⟩ => simp [DotDims.lhsIdx, dot_S4000x16_S16x48_S4000x48_1_0_0_1_n_n]; exact ck
  have hr : dot_S4000x16_S16x48_S4000x48_1_0_0_1_n_n.rhsIdx (ix2 p f)
      ((contrEquiv1 dot_S4000x16_S16x48_S4000x48_1_0_0_1_n_n 16 rfl rfl).symm k) = ix2 k f := by
    funext ax; apply Fin.ext
    match ax with
    | ⟨0, _⟩ => simp [DotDims.rhsIdx, dot_S4000x16_S16x48_S4000x48_1_0_0_1_n_n]; exact ck
    | ⟨1, _⟩ => simp [DotDims.rhsIdx, dot_S4000x16_S16x48_S4000x48_1_0_0_1_n_n]; rfl
  rw [hl, hr]

/-- The body's arithmetic at row p, feature f of the block: the three 16-term products of the row's three input
    slabs with the three 16-row slabs of the weight block, summed, times the row's scale factor. -/
theorem pay_apply (x0 x1 x2 : Vec Ideal S4000x16 .f32) (w0 w1 w2 : Vec Ideal S16x48 .f32) (d : Vec Ideal S4000x1 .f32)
    (p : Fin 4000) (f : Fin 48) :
    k0_pay1 (F := Ideal) x0 x1 x2 w0 w1 w2 d (ix2 p f)
      = ((∑ k : Fin 16, x0 (ix2 p k) * w0 (ix2 k f) + ∑ k : Fin 16, x1 (ix2 p k) * w1 (ix2 k f))
          + ∑ k : Fin 16, x2 (ix2 p k) * w2 (ix2 k f)) * d (ix2 p (0 : Fin 1)) := by
  unfold k0_pay1
  simp only [shapeCast_self]
  rw [mulf_apply, addf_apply, addf_apply, matmul_zero_apply, matmul_zero_apply, matmul_zero_apply,
    Cert.BoxFilter.ColumnForms.broadcastTo_a1_ab_apply]
  rfl

/-! ## The weight block's three slabs -/

/-- Row k of the slab loaded at row offset 0 is row k of the weight block. -/
theorem slab0_apply (w : Vec Ideal S48x48 .f32) (k : Fin 16) (f : Fin 48) :
    (View.ld w r0_1 : Vec Ideal S16x48 .f32) (ix2 k f) = w (ix2 (blk0 k) f) := by
  show w (r0_1.idx (ix2 k f)) = _
  refine congrArg w (funext fun a => Fin.ext ?_)
  match a with
  | ⟨0, _⟩ => show 0 + 1 * k.val = k.val; omega
  | ⟨1, _⟩ => show 0 + 1 * f.val = f.val; omega

/-- Row k of the slab loaded at row offset 16 is row 16 + k of the weight block. -/
theorem slab1_apply (w : Vec Ideal S48x48 .f32) (k : Fin 16) (f : Fin 48) :
    (View.ld w r0_2 : Vec Ideal S16x48 .f32) (ix2 k f) = w (ix2 (blk1 k) f) := by
  show w (r0_2.idx (ix2 k f)) = _
  refine congrArg w (funext fun a => Fin.ext ?_)
  match a with
  | ⟨0, _⟩ => show 16 + 1 * k.val = 16 + k.val; omega
  | ⟨1, _⟩ => show 0 + 1 * f.val = f.val; omega

/-- Row k of the slab loaded at row offset 32 is row 32 + k of the weight block. -/
theorem slab2_apply (w : Vec Ideal S48x48 .f32) (k : Fin 16) (f : Fin 48) :
    (View.ld w r0_3 : Vec Ideal S16x48 .f32) (ix2 k f) = w (ix2 (blk2 k) f) := by
  show w (r0_3.idx (ix2 k f)) = _
  refine congrArg w (funext fun a => Fin.ext ?_)
  match a with
  | ⟨0, _⟩ => show 32 + 1 * k.val = 32 + k.val; omega
  | ⟨1, _⟩ => show 0 + 1 * f.val = f.val; omega

/-- One entry of the block the body leaves, when the blocks it reads are rows of whole arrays: if row p of each input
    block is row r of its array, the weight block is the whole weight array and the scale block's row p is the scale
    array's row r, the entry (p, f) is the projection's entry (r, f). -/
theorem pay_rows (X0 X1 X2 : FVec Ideal Cert.Gcn.SNx16 .f32) (W : FVec Ideal Cert.Gcn.S48x48 .f32)
    (D : FVec Ideal Cert.Gcn.SNx1 .f32)
    (x0 x1 x2 : Vec Ideal S4000x16 .f32) (x3 : Vec Ideal S48x48 .f32) (x4 : Vec Ideal S4000x1 .f32)
    (r : Fin 100000) (p : Fin 4000) (f : Fin 48)
    (h0 : ∀ k : Fin 16, x0 (ix2 p k) = X0 (ix2 r k))
    (h1 : ∀ k : Fin 16, x1 (ix2 p k) = X1 (ix2 r k))
    (h2 : ∀ k : Fin 16, x2 (ix2 p k) = X2 (ix2 r k))
    (h3 : ∀ (a : Fin 48) (f : Fin 48), x3 (ix2 a f) = W (ix2 a f))
    (h4 : x4 (ix2 p (0 : Fin 1)) = D (ix2 r (0 : Fin 1))) :
    k0_pay1 (F := Ideal) x0 x1 x2 (View.ld x3 r0_1) (View.ld x3 r0_2) (View.ld x3 r0_3) x4 (ix2 p f)
      = projAt X0 X1 X2 W D r f := by
  rw [pay_apply]
  unfold Cert.Gcn.projAt
  refine congrArg₂ (· * ·) (congrArg₂ (· + ·) (congrArg₂ (· + ·)
    (Finset.sum_congr rfl fun k _ => ?_) (Finset.sum_congr rfl fun k _ => ?_)) (Finset.sum_congr rfl fun k _ => ?_)) h4
  · exact congrArg₂ (· * ·) (h0 k) ((slab0_apply x3 k f).trans (h3 _ _))
  · exact congrArg₂ (· * ·) (h1 k) ((slab1_apply x3 k f).trans (h3 _ _))
  · exact congrArg₂ (· * ·) (h2 k) ((slab2_apply x3 k f).trans (h3 _ _))

/-! ## From blocks to the array -/

section Blocks

variable (V : (c : Dev nD) → (b : Ref sig .tc) → Buf (Elt Ideal) ((c : Thread nD τ).loc b))

/-- The zero offsets of a whole-block access, as the constant function. -/
theorem zero_off : (![0, 0] : Fin 2 → Nat) = fun _ => 0 := funext fun a => by fin_cases a <;> rfl

/-- The index maps over the grid: at point t every row window sits at block row t, block column 0, and the weight
    window at block (0, 0). -/
theorem idx_facts : ∀ t : Fin cfg0.N,
      win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- Row p of the first input's block at point t is row 4000 t + p of its array. -/
theorem rows_x (c : Dev nD) (t : Fin cfg0.N) (p : Fin 4000) (k : Fin 16) (r : Fin 100000)
    (hr : r.val = t.val * 4000 + p.val) :
    (iblk0 V c 0 t : Vec Ideal S4000x16 .f32) (ix2 p k) = (V c main_arg2 : S100000x16.Idx → EReal) (ix2 r k) := by
  obtain ⟨e0, e1, -⟩ := idx_facts t
  have he : ((cfg0.win 0).blk t).view.emb (ix2 p k) = ix2 r k := by
    funext a; apply Fin.ext
    match a with
    | ⟨0, _⟩ => show win0_0.index t (0 : Fin 2) * 4000 + 1 * p.val = r.val; omega
    | ⟨1, _⟩ => show win0_0.index t (1 : Fin 2) * 16 + 1 * k.val = k.val; omega
  unfold iblk0
  rw [View.read_apply]
  show V c main_arg2 (((cfg0.win 0).blk t).view.emb (ix2 p k)) = V c main_arg2 (ix2 r k)
  rw [he]

/-- Row p of the second input's block at point t is row 4000 t + p of its array. -/
theorem rows_h (c : Dev nD) (t : Fin cfg0.N) (p : Fin 4000) (k : Fin 16) (r : Fin 100000)
    (hr : r.val = t.val * 4000 + p.val) :
    (iblk0 V c 1 t : Vec Ideal S4000x16 .f32) (ix2 p k) = (V c main_arg0 : S100000x16.Idx → EReal) (ix2 r k) := by
  obtain ⟨-, -, e0, e1, -⟩ := idx_facts t
  have he : ((cfg0.win 1).blk t).view.emb (ix2 p k) = ix2 r k := by
    funext a; apply Fin.ext
    match a with
    | ⟨0, _⟩ => show win0_1.index t (0 : Fin 2) * 4000 + 1 * p.val = r.val; omega
    | ⟨1, _⟩ => show win0_1.index t (1 : Fin 2) * 16 + 1 * k.val = k.val; omega
  unfold iblk0
  rw [View.read_apply]
  show V c main_arg0 (((cfg0.win 1).blk t).view.emb (ix2 p k)) = V c main_arg0 (ix2 r k)
  rw [he]

/-- Row p of the third input's block at point t is row 4000 t + p of its array. -/
theorem rows_q (c : Dev nD) (t : Fin cfg0.N) (p : Fin 4000) (k : Fin 16) (r : Fin 100000)
    (hr : r.val = t.val * 4000 + p.val) :
    (iblk0 V c 2 t : Vec Ideal S4000x16 .f32) (ix2 p k) = (V c main_arg3 : S100000x16.Idx → EReal) (ix2 r k) := by
  obtain ⟨-, -, -, -, e0, e1, -⟩ := idx_facts t
  have he : ((cfg0.win 2).blk t).view.emb (ix2 p k) = ix2 r k := by
    funext a; apply Fin.ext
    match a with
    | ⟨0, _⟩ => show win0_2.index t (0 : Fin 2) * 4000 + 1 * p.val = r.val; omega
    | ⟨1, _⟩ => show win0_2.index t (1 : Fin 2) * 16 + 1 * k.val = k.val; omega
  unfold iblk0
  rw [View.read_apply]
  show V c main_arg3 (((cfg0.win 2).blk t).view.emb (ix2 p k)) = V c main_arg3 (ix2 r k)
  rw [he]

/-- The weight window's block at every point is the whole weight array. -/
theorem whole_w (c : Dev nD) (t : Fin cfg0.N) (a : Fin 48) (f : Fin 48) :
    (iblk0 V c 3 t : Vec Ideal S48x48 .f32) (ix2 a f) = (V c main_v6 : S48x48.Idx → EReal) (ix2 a f) := by
  obtain ⟨-, -, -, -, -, -, e0, e1, -⟩ := idx_facts t
  have he : ((cfg0.win 3).blk t).view.emb (ix2 a f) = ix2 a f := by
    funext b; apply Fin.ext
    match b with
    | ⟨0, _⟩ => show win0_3.index t (0 : Fin 2) * 48 + 1 * a.val = a.val; omega
    | ⟨1, _⟩ => show win0_3.index t (1 : Fin 2) * 48 + 1 * f.val = f.val; omega
  unfold iblk0
  rw [View.read_apply]
  show V c main_v6 (((cfg0.win 3).blk t).view.emb (ix2 a f)) = V c main_v6 (ix2 a f)
  rw [he]

/-- Row p of the scale column's block at point t is row 4000 t + p of the column. -/
theorem rows_d (c : Dev nD) (t : Fin cfg0.N) (p : Fin 4000) (r : Fin 100000)
    (hr : r.val = t.val * 4000 + p.val) :
    (iblk0 V c 4 t : Vec Ideal S4000x1 .f32) (ix2 p (0 : Fin 1)) = (V c main_v17 : S100000x1.Idx → EReal) (ix2 r (0 : Fin 1)) := by
  obtain ⟨-, -, -, -, -, -, -, -, e0, e1, -⟩ := idx_facts t
  have he : ((cfg0.win 4).blk t).view.emb (ix2 p (0 : Fin 1)) = ix2 r (0 : Fin 1) := by
    funext a; apply Fin.ext
    match a with
    | ⟨0, _⟩ => show win0_4.index t (0 : Fin 2) * 4000 + 1 * p.val = r.val; omega
    | ⟨1, _⟩ => show win0_4.index t (1 : Fin 2) * 1 + 1 * 0 = 0; omega
  unfold iblk0
  rw [View.read_apply]
  show V c main_v17 (((cfg0.win 4).blk t).view.emb (ix2 p (0 : Fin 1))) = V c main_v17 (ix2 r (0 : Fin 1))
  rw [he]

/-- What point t writes back is block t of the projection of the arrays as the region finds them. -/
theorem flushed_eq (c : Dev nD) (t : Fin cfg0.N) :
    (dat0 (F := Ideal) V c).flushed 5 t = ((cfg0.win 5).blk t).view.read (Elt Ideal)
      (proj (V c main_arg2) (V c main_arg0) (V c main_arg3) (V c main_v6) (V c main_v17)) := by
  show (cfg0.win 5).cut (grid0.coords t) ((dat0 (F := Ideal) V c).after 5 t) = _
  rw [after0_5]
  unfold out0_5
  rw [View.canon_unit_zero zero_off]
  simp only [View.ld_unit_zero (S := S4000x16) zero_off, View.ld_unit_zero (S := S4000x1) zero_off]
  have hN : cfg0.N = 25 := N_0
  have ht : t.val < 25 := by have := t.isLt; omega
  have key : ∀ j : S4000x48.Idx,
      k0_pay1 (F := Ideal) (iblk0 V c 0 t) (iblk0 V c 1 t) (iblk0 V c 2 t) (View.ld (iblk0 V c 3 t) r0_1)
          (View.ld (iblk0 V c 3 t) r0_2) (View.ld (iblk0 V c 3 t) r0_3) (iblk0 V c 4 t) j
        = proj (V c main_arg2) (V c main_arg0) (V c main_arg3) (V c main_v6) (V c main_v17)
            (((cfg0.win 5).blk t).view.emb j) := by
    intro j
    obtain ⟨p, f, rfl⟩ : ∃ (p : Fin 4000) (f : Fin 48), j = ix2 p f := ⟨j 0, j 1, eq_ix2 j⟩
    have hp : p.val < 4000 := p.isLt
    have hr : t.val * 4000 + p.val < 100000 := by omega
    obtain ⟨-, -, -, -, -, -, -, -, -, -, e0, e1⟩ := idx_facts t
    have he : ((cfg0.win 5).blk t).view.emb (ix2 p f) = ix2 (⟨t.val * 4000 + p.val, hr⟩ : Fin 100000) f := by
      funext a; apply Fin.ext
      match a with
      | ⟨0, _⟩ => show win0_5.index t (0 : Fin 2) * 4000 + 1 * p.val = t.val * 4000 + p.val; omega
      | ⟨1, _⟩ => show win0_5.index t (1 : Fin 2) * 48 + 1 * f.val = f.val; omega
    rw [he, Cert.Gcn.proj_apply]
    exact pay_rows (V c main_arg2) (V c main_arg0) (V c main_arg3) (V c main_v6) (V c main_v17)
      (iblk0 V c 0 t) (iblk0 V c 1 t) (iblk0 V c 2 t) (iblk0 V c 3 t) (iblk0 V c 4 t)
      ⟨t.val * 4000 + p.val, hr⟩ p f
      (fun k => rows_x V c t p k ⟨t.val * 4000 + p.val, hr⟩ rfl)
      (fun k => rows_h V c t p k ⟨t.val * 4000 + p.val, hr⟩ rfl)
      (fun k => rows_q V c t p k ⟨t.val * 4000 + p.val, hr⟩ rfl)
      (fun a f => whole_w V c t a f)
      (rows_d V c t p ⟨t.val * 4000 + p.val, hr⟩ rfl)
  funext j
  exact key j

/-- An index of the output array is in point t's block iff each coordinate is in the block's range on its axis. -/
theorem mem_blk (t : Fin cfg0.N) (i : S100000x48.Idx) :
    i ∈ ((cfg0.win 5).blk t).view.set ↔ ∀ a : Fin 2, win0_5.index t a * S4000x48.size a ≤ (i a).val
      ∧ (i a).val < win0_5.index t a * S4000x48.size a + S4000x48.size a := by
  show i ∈ ((View.whole main_v18).slice (win0_5.rect t)).set ↔ _
  rw [View.set_slice_whole, Rect.mem_set_unit]
  exact Iff.rfl

/-- Every row of the output array is in some point's block: row r in the block of point r / 4000. -/
theorem cover (i : S100000x48.Idx) :
    ∃ t : Fin cfg0.N, (cfg0.win 5).flush t = true ∧ i ∈ ((cfg0.win 5).blk t).view.set := by
  have hN : cfg0.N = 25 := N_0
  have hi0 : (i 0).val < 100000 := (i 0).isLt
  have hi1 : (i 1).val < 48 := (i 1).isLt
  have hq : (i 0).val / 4000 < cfg0.N := by rw [hN]; omega
  obtain ⟨-, -, -, -, -, -, -, -, -, -, e0, e1⟩ := idx_facts ⟨(i 0).val / 4000, hq⟩
  have e0' : win0_5.index ⟨(i 0).val / 4000, hq⟩ (0 : Fin 2) = (i 0).val / 4000 := e0
  refine ⟨⟨(i 0).val / 4000, hq⟩, flush0_5 _, ?_⟩
  rw [mem_blk]
  intro a
  match a with
  | ⟨0, _⟩ =>
    show win0_5.index ⟨(i 0).val / 4000, hq⟩ (0 : Fin 2) * 4000 ≤ (i 0).val
      ∧ (i 0).val < win0_5.index ⟨(i 0).val / 4000, hq⟩ (0 : Fin 2) * 4000 + 4000
    omega
  | ⟨1, _⟩ =>
    show win0_5.index ⟨(i 0).val / 4000, hq⟩ (1 : Fin 2) * 48 ≤ (i 1).val
      ∧ (i 1).val < win0_5.index ⟨(i 0).val / 4000, hq⟩ (1 : Fin 2) * 48 + 48
    omega

/-- The output array after region 0: the projection of the five arrays the region reads, as it finds them. -/
theorem arr_proj (c : Dev nD) :
    (dat0 (F := Ideal) V c).arrAt 5 cfg0.N
      = proj (V c main_arg2) (V c main_arg0) (V c main_arg3) (V c main_v6) (V c main_v17) :=
  (dat0 (F := Ideal) V c).arrAt_eq_of_cover 5 _ (fun t _ => flushed_eq V c t) (fun i => cover i)

end Blocks

end Cert.KernelIdeal.ProjValue

end
-- ==== Proof.CombBlocks.lean ====
/-
  The second dense map of the layer, read off the grid of row blocks.

  The combining body works on blocks of 4000 rows: grid point t holds rows 4000 t … 4000 t + 3999 of the aggregated
  array, of the projected array and of the column of degree factors, and the whole bias row.  At row p, feature f of
  the block it leaves   d[p] * (agg[p,f] + y[p,f]) + b[f] .  The 25 blocks tile the 100000 rows, so the array the
  region leaves is that function of the four arrays the region finds, entry by entry.
-/
import proofs.«134983_j39917426049337_2_alg».proof.Proof.Gen.KernelIdeal.Frame
import proofs.«134983_j39917426049337_2_alg».proof.Proof.Spec
import proofs.«134983_j39917426049337_2_alg».proof.Proof.LibColumnForms
import Idealize.ShloMosaic.Lib.Pipeline.Value
import Idealize.ShloMosaic.Lib.ValueIdx
import Idealize.ShloMosaic.Lib.ValueLayout

noncomputable section

namespace Cert.KernelIdeal.CombValue

open Cert.KernelIdeal Cert.KernelIdeal.Gen Idealize.ShloMosaic Idealize.ShloMosaic.TcCoe Idealize.SL.Sem
open Idealize.ShloMosaic.ValueIdx
open Idealize.ShloMosaic.Pipeline (Dat)

/-- The zero offsets of a rank-2 rectangle, as the constant function. -/
theorem zero_off : (![0, 0] : Fin 2 → Nat) = fun _ => 0 := funext fun a => by fin_cases a <;> rfl

/-- The body's arithmetic at row p, feature f of a block: the row's factor times the sum of the two
    blocks' entries, plus the bias of the feature. -/
theorem pay_apply (x2 : Vec Ideal S4000x1 .f32) (x0 x1 : Vec Ideal S4000x48 .f32) (x3 : Vec Ideal S1x48 .f32)
    (p : Fin 4000) (f : Fin 48) :
    k1_pay1 (F := Ideal) x2 x0 x1 x3 (ix2 p f)
      = x2 (ix2 p (0 : Fin 1)) * (x0 (ix2 p f) + x1 (ix2 p f)) + x3 (ix2 (0 : Fin 1) f) := by
  unfold k1_pay1
  simp only [shapeCast_self]
  rw [addf_apply, mulf_apply, addf_apply, Cert.BoxFilter.ColumnForms.broadcastTo_a1_ab_apply, broadcastTo_1b_ab_apply]

variable (V : (c : Dev nD) → (b : Ref sig .tc) → Buf (Elt Ideal) ((c : Thread nD τ).loc b))

/-- The block index maps over the 25 grid points: the three row-blocked inputs and the output sit at block (t, 0),
    the bias row at block (0, 0). -/
theorem idx_facts : ∀ t : Fin cfg1.N,
    win1_4.index t (0 : Fin 2) = t.val ∧ win1_4.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0 :=
  (by decide +kernel : ∀ t : Fin grid1.N, _)

/-- Every block row is some grid point's. -/
theorem idx_onto : ∀ q : Fin 25, ∃ t : Fin cfg1.N, win1_4.index t = ![q.val, 0] :=
  (by decide +kernel : ∀ q : Fin 25, ∃ t : Fin grid1.N, win1_4.index t = ![q.val, 0])

/-- The aggregated array's block at point t is its rows 4000 t … 4000 t + 3999. -/
theorem agg_blk_apply (c : Dev nD) (t : Fin cfg1.N) (p : Fin 4000) (f : Fin 48) (r : Fin 100000)
    (hr : r.val = 4000 * t.val + p.val) :
    (iblk1 V c 0 t : Vec Ideal S4000x48 .f32) (ix2 p f) = (V c main_v28 : S100000x48.Idx → EReal) (ix2 r f) := by
  obtain ⟨-, -, e0, e1, -⟩ := idx_facts t
  unfold iblk1
  rw [View.read_apply]
  show V c main_v28 _ = V c main_v28 _
  congr 1
  funext a
  apply Fin.ext
  match a with
  | ⟨0, _⟩ => show win1_0.index t (0 : Fin 2) * 4000 + 1 * p.val = r.val; omega
  | ⟨1, _⟩ => show win1_0.index t (1 : Fin 2) * 48 + 1 * f.val = f.val; omega

/-- The projected array's block at point t is its rows 4000 t … 4000 t + 3999. -/
theorem y_blk_apply (c : Dev nD) (t : Fin cfg1.N) (p : Fin 4000) (f : Fin 48) (r : Fin 100000)
    (hr : r.val = 4000 * t.val + p.val) :
    (iblk1 V c 1 t : Vec Ideal S4000x48 .f32) (ix2 p f) = (V c main_v18 : S100000x48.Idx → EReal) (ix2 r f) := by
  obtain ⟨-, -, -, -, e0, e1, -⟩ := idx_facts t
  unfold iblk1
  rw [View.read_apply]
  show V c main_v18 _ = V c main_v18 _
  congr 1
  funext a
  apply Fin.ext
  match a with
  | ⟨0, _⟩ => show win1_1.index t (0 : Fin 2) * 4000 + 1 * p.val = r.val; omega
  | ⟨1, _⟩ => show win1_1.index t (1 : Fin 2) * 48 + 1 * f.val = f.val; omega

/-- The column of factors: its block at point t is its rows 4000 t … 4000 t + 3999. -/
theorem d_blk_apply (c : Dev nD) (t : Fin cfg1.N) (p : Fin 4000) (r : Fin 100000)
    (hr : r.val = 4000 * t.val + p.val) :
    (iblk1 V c 2 t : Vec Ideal S4000x1 .f32) (ix2 p (0 : Fin 1)) = (V c main_v17 : S100000x1.Idx → EReal) (ix2 r (0 : Fin 1)) := by
  obtain ⟨-, -, -, -, -, -, e0, e1, -⟩ := idx_facts t
  unfold iblk1
  rw [View.read_apply]
  show V c main_v17 _ = V c main_v17 _
  congr 1
  funext a
  apply Fin.ext
  match a with
  | ⟨0, _⟩ => show win1_2.index t (0 : Fin 2) * 4000 + 1 * p.val = r.val; omega
  | ⟨1, _⟩ => show win1_2.index t (1 : Fin 2) * 1 + 1 * 0 = 0; omega

/-- The bias row's block is the whole row at every point. -/
theorem b_blk_apply (c : Dev nD) (t : Fin cfg1.N) (f : Fin 48) :
    (iblk1 V c 3 t : Vec Ideal S1x48 .f32) (ix2 (0 : Fin 1) f) = (V c main_v9 : S1x48.Idx → EReal) (ix2 (0 : Fin 1) f) := by
  obtain ⟨-, -, -, -, -, -, -, -, e0, e1⟩ := idx_facts t
  unfold iblk1
  rw [View.read_apply]
  show V c main_v9 _ = V c main_v9 _
  congr 1
  funext a
  apply Fin.ext
  match a with
  | ⟨0, _⟩ => show win1_3.index t (0 : Fin 2) * 1 + 1 * 0 = 0; omega
  | ⟨1, _⟩ => show win1_3.index t (1 : Fin 2) * 48 + 1 * f.val = f.val; omega

/-- What grid point t writes back is block t of the combination of the four arrays the region finds. -/
theorem flushed_comb (c : Dev nD) (t : Fin cfg1.N) :
    (dat1 (F := Ideal) V c).flushed 4 t
      = ((cfg1.win 4).blk t).view.read (Elt Ideal)
          (Cert.Gcn.comb (V c main_v28) (V c main_v18) (V c main_v17) (V c main_v9)) := by
  show (cfg1.win 4).cut (grid1.coords t) ((dat1 V c).after 4 t) = _
  rw [after1_4]
  unfold out1_4
  rw [View.canon_unit_zero zero_off]
  simp only [View.ld_unit_zero (S := S4000x48) zero_off, View.ld_unit_zero (S := S4000x1) zero_off,
    View.ld_unit_zero (S := S1x48) zero_off]
  obtain ⟨e0, e1, -⟩ := idx_facts t
  refine funext fun (j : S4000x48.Idx) => ?_
  obtain ⟨p, f, rfl⟩ : ∃ (p : Fin 4000) (f : Fin 48), j = ix2 p f := ⟨j 0, j 1, eq_ix2 j⟩
  have hN : cfg1.N = 25 := N_1
  have hr : 4000 * t.val + p.val < 100000 := by have := t.isLt; omega
  have hemb : ((cfg1.win 4).blk t).view.emb (ix2 p f)
      = (ix2 (⟨4000 * t.val + p.val, hr⟩ : Fin 100000) f : S100000x48.Idx) := by
    funext a
    apply Fin.ext
    match a with
    | ⟨0, _⟩ => show win1_4.index t (0 : Fin 2) * 4000 + 1 * p.val = 4000 * t.val + p.val; omega
    | ⟨1, _⟩ => show win1_4.index t (1 : Fin 2) * 48 + 1 * f.val = f.val; omega
  show k1_pay1 (F := Ideal) (iblk1 V c 2 t) (iblk1 V c 0 t) (iblk1 V c 1 t) (iblk1 V c 3 t) (ix2 p f)
    = Cert.Gcn.comb (V c main_v28) (V c main_v18) (V c main_v17) (V c main_v9) (((cfg1.win 4).blk t).view.emb (ix2 p f))
  rw [hemb, Cert.Gcn.comb_apply]
  refine (pay_apply (iblk1 V c 2 t) (iblk1 V c 0 t) (iblk1 V c 1 t) (iblk1 V c 3 t) p f).trans ?_
  unfold Cert.Gcn.combAt
  rw [agg_blk_apply V c t p f ⟨4000 * t.val + p.val, hr⟩ rfl, y_blk_apply V c t p f ⟨4000 * t.val + p.val, hr⟩ rfl,
    d_blk_apply V c t p ⟨4000 * t.val + p.val, hr⟩ rfl, b_blk_apply V c t f]

/-- An index of the result array is in point t's block iff each coordinate is in the block's range on its axis. -/
theorem mem_blk (t : Fin cfg1.N) (i : S100000x48.Idx) :
    i ∈ ((cfg1.win 4).blk t).view.set ↔ ∀ a : Fin 2, win1_4.index t a * S4000x48.size a ≤ (i a).val
      ∧ (i a).val < win1_4.index t a * S4000x48.size a + S4000x48.size a := by
  show i ∈ ((View.whole main_v29).slice (win1_4.rect t)).set ↔ _
  rw [View.set_slice_whole, Rect.mem_set_unit]
  exact Iff.rfl

/-- The 25 blocks of 4000 rows tile the 100000 rows: row r is in the block of point r / 4000. -/
theorem covered (i : S100000x48.Idx) :
    ∃ t : Fin cfg1.N, (cfg1.win 4).flush t = true ∧ i ∈ ((cfg1.win 4).blk t).view.set := by
  have hi0 : (i 0).val < 100000 := (i 0).isLt
  have hi1 : (i 1).val < 48 := (i 1).isLt
  obtain ⟨t, ht⟩ := idx_onto ⟨(i 0).val / 4000, by omega⟩
  have q0 : win1_4.index t (0 : Fin 2) = (i 0).val / 4000 := congrFun ht 0
  have q1 : win1_4.index t (1 : Fin 2) = 0 := congrFun ht 1
  refine ⟨t, flush1_4 t, ?_⟩
  rw [mem_blk]
  intro a
  match a with
  | ⟨0, _⟩ =>
    show win1_4.index t (0 : Fin 2) * 4000 ≤ (i 0).val ∧ (i 0).val < win1_4.index t (0 : Fin 2) * 4000 + 4000
    omega
  | ⟨1, _⟩ =>
    show win1_4.index t (1 : Fin 2) * 48 ≤ (i 1).val ∧ (i 1).val < win1_4.index t (1 : Fin 2) * 48 + 48
    omega

/-- The array the second grid leaves: the combination of the aggregated array, the projected array, the column of
    factors and the bias row as the region finds them. -/
theorem arr_comb (c : Dev nD) :
    (dat1 (F := Ideal) V c).arrAt 4 cfg1.N
      = Cert.Gcn.comb (V c main_v28) (V c main_v18) (V c main_v17) (V c main_v9) :=
  (dat1 (F := Ideal) V c).arrAt_eq_of_cover 4 _ (fun t _ => flushed_comb V c t) covered

end Cert.KernelIdeal.CombValue

end
-- ==== Proof.KernelValue.lean ====
/-
  The program's result as one term of the launch memory.

  The program computes, from the node features x, h, q, the edge list, the stacked weights and the stacked biases:
  the two index vectors of the edges (sources and destinations: the two rows of the edge list), the transposed last
  weight matrix, the last bias as a row, the column of factors  d = rsqrt(1 + number of edges into the node) ,
  the projection  y = proj x h q wt d  (first grid), the sum over each node's incoming edges of the rows of y at the
  edges' sources (a gather followed by a scatter-add, negative sources wrapped once), and last the combination
  comb agg y d b  (second grid).  Each stretch of array operations is read buffer by buffer as the operations'
  composed term; the first grid's result is taken as a hypothesis in the form "the array it leaves is proj of the five
  arrays it finds"; the second grid's is the combination of the four arrays it finds.
-/
import proofs.«134983_j39917426049337_2_alg».proof.Proof.Gen.KernelIdeal.Frame
import proofs.«134983_j39917426049337_2_alg».proof.Proof.Spec
import proofs.«134983_j39917426049337_2_alg».proof.Proof.CombBlocks
import Idealize.ShloMosaic.Lib.StableHlo.Run
import Idealize.ShloMosaic.Lib.Pipeline.Value

set_option maxRecDepth 16384

noncomputable section

namespace Cert.KernelIdeal.HostValue

open Cert.KernelIdeal Cert.KernelIdeal.Gen Idealize.ShloMosaic Idealize.ShloMosaic.TcCoe Idealize.SL.Sem
open Idealize.ShloMosaic.StableHlo

/-! ## The first stretch of array operations, from any contents -/

section FirstStretch

variable (X : Valuation τ sig (Elt Ideal))

/-- The edges' sources: row 0 of the edge list, as a vector. -/
theorem first_v1 : after (hostOps0 (F := Ideal)) X (Proc.devRef .tc main_v1)
    = shapeCast S1600000 (extractStridedSlice S1x1600000 ![0, 0] (X (Proc.devRef .tc main_arg1)) slices_S2x1600000_S1x1600000_0_0) shapeCasts_S1x1600000_S1600000 := by
  simp only [hostOps0]
  after_results
  rfl

/-- The edges' destinations: row 1 of the edge list, as a vector. -/
theorem first_v3 : after (hostOps0 (F := Ideal)) X (Proc.devRef .tc main_v3)
    = shapeCast S1600000 (extractStridedSlice S1x1600000 ![1, 0] (X (Proc.devRef .tc main_arg1)) slices_S2x1600000_S1x1600000_1_0) shapeCasts_S1x1600000_S1600000 := by
  simp only [hostOps0]
  after_results
  rfl

/-- The last weight matrix, transposed. -/
theorem first_v6 : after (hostOps0 (F := Ideal)) X (Proc.devRef .tc main_v6)
    = transpose S48x48 [1, 0] (shapeCast S48x48 (extractStridedSlice S1x48x48 ![3, 0, 0] (X (Proc.devRef .tc main_arg5)) slices_S4x48x48_S1x48x48_3_0_0) shapeCasts_S1x48x48_S48x48) transposes_S48x48_S48x48_1_0 := by
  simp only [hostOps0]
  after_results
  rfl

/-- The last bias, as a row. -/
theorem first_v9 : after (hostOps0 (F := Ideal)) X (Proc.devRef .tc main_v9)
    = shapeCast S1x48 (shapeCast S48 (extractStridedSlice S1x48 ![3, 0] (X (Proc.devRef .tc main_arg6)) slices_S4x48_S1x48_3_0) shapeCasts_S1x48_S48) shapeCasts_S48_S1x48 := by
  simp only [hostOps0]
  after_results
  rfl

/-- The column of factors: the reciprocal square root of one plus the count of edges into each node. -/
theorem first_v17 : after (hostOps0 (F := Ideal)) X (Proc.devRef .tc main_v17)
    = shapeCast S100000x1 (Host.rsqrt (addf (Host.scatterAdd scatter_S100000_S1600000x1_S1600000_n_0_0_1
        (broadcastInDim S100000 ![] bcast_S_S100000 (constant (F := Ideal) S_ .f32 0x00000000#32))
        (broadcastInDim S1600000x1 ![0] bcast_S1600000_S1600000x1_0
          (shapeCast S1600000 (extractStridedSlice S1x1600000 ![1, 0] (X (Proc.devRef .tc main_arg1)) slices_S2x1600000_S1x1600000_1_0) shapeCasts_S1x1600000_S1600000))
        (broadcastInDim S1600000 ![] bcast_S_S1600000 (constant (F := Ideal) S_ .f32 0x3F800000#32)))
        (broadcastInDim S100000 ![] bcast_S_S100000 (constant (F := Ideal) S_ .f32 0x3F800000#32)))) shapeCasts_S100000_S100000x1 := by
  simp only [hostOps0]
  after_results
  rfl

/-- The node features are not written. -/
theorem first_arg0 : after (hostOps0 (F := Ideal)) X (Proc.devRef .tc main_arg0) = X (Proc.devRef .tc main_arg0) := by
  simp only [hostOps0]
  after_results
theorem first_arg2 : after (hostOps0 (F := Ideal)) X (Proc.devRef .tc main_arg2) = X (Proc.devRef .tc main_arg2) := by
  simp only [hostOps0]
  after_results
theorem first_arg3 : after (hostOps0 (F := Ideal)) X (Proc.devRef .tc main_arg3) = X (Proc.devRef .tc main_arg3) := by
  simp only [hostOps0]
  after_results

end FirstStretch

/-! ## The second stretch, from any contents -/

section SecondStretch

variable (Y : Valuation τ sig (Elt Ideal))

/-- The aggregated array: zero, plus at each edge's destination the row of the projected array at the edge's source
    (a negative source taken once around). -/
theorem second_v28 : after (hostOps1 (F := Ideal)) Y (Proc.devRef .tc main_v28)
    = Host.scatterAdd scatter_S100000x48_S1600000x1_S1600000x48_1_0_0_1
        (broadcastInDim S100000x48 ![] bcast_S_S100000x48 (constant (F := Ideal) S_ .f32 0x00000000#32))
        (broadcastInDim S1600000x1 ![0] bcast_S1600000_S1600000x1_0 (Y (Proc.devRef .tc main_v3)))
        (Host.gather gather_S100000x48_S1600000x1_S1600000x48_1_0_n_n_0_1_148 (Y (Proc.devRef .tc main_v18))
          (broadcastInDim S1600000x1 ![0] bcast_S1600000_S1600000x1_0
            (select (cmpi .slt (Y (Proc.devRef .tc main_v1)) (broadcastInDim S1600000 ![] bcast_S_S1600000 (constantI S_ 32 0#32)))
              (addi (Y (Proc.devRef .tc main_v1)) (broadcastInDim S1600000 ![] bcast_S_S1600000 (constantI S_ 32 100000#32)))
              (Y (Proc.devRef .tc main_v1))))) := by
  simp only [hostOps1]
  after_results

/-- The projected array, the column of factors and the bias row are not written. -/
theorem second_v18 : after (hostOps1 (F := Ideal)) Y (Proc.devRef .tc main_v18) = Y (Proc.devRef .tc main_v18) := by
  simp only [hostOps1]
  after_results
theorem second_v17 : after (hostOps1 (F := Ideal)) Y (Proc.devRef .tc main_v17) = Y (Proc.devRef .tc main_v17) := by
  simp only [hostOps1]
  after_results
theorem second_v9 : after (hostOps1 (F := Ideal)) Y (Proc.devRef .tc main_v9) = Y (Proc.devRef .tc main_v9) := by
  simp only [hostOps1]
  after_results

end SecondStretch

/-! ## The terms of the launch memory -/

section Terms

variable (m : (ℓ : Loc nD τ sig) → Buf (Elt Ideal) ℓ) (c : Dev nD)

/-- The edges' sources. -/
def kSrc : (⟨S1600000, .i32⟩ : BufTy).Contents (Elt Ideal) :=
  shapeCast S1600000 (extractStridedSlice S1x1600000 ![0, 0] (m ((c.tc : Thread nD τ).loc main_arg1)) slices_S2x1600000_S1x1600000_0_0) shapeCasts_S1x1600000_S1600000

/-- The edges' destinations. -/
def kDst : (⟨S1600000, .i32⟩ : BufTy).Contents (Elt Ideal) :=
  shapeCast S1600000 (extractStridedSlice S1x1600000 ![1, 0] (m ((c.tc : Thread nD τ).loc main_arg1)) slices_S2x1600000_S1x1600000_1_0) shapeCasts_S1x1600000_S1600000

/-- The last weight matrix, transposed. -/
def kWt : (⟨S48x48, .f32⟩ : BufTy).Contents (Elt Ideal) :=
  transpose S48x48 [1, 0] (shapeCast S48x48 (extractStridedSlice S1x48x48 ![3, 0, 0] (m ((c.tc : Thread nD τ).loc main_arg5)) slices_S4x48x48_S1x48x48_3_0_0) shapeCasts_S1x48x48_S48x48) transposes_S48x48_S48x48_1_0

/-- The last bias, as a row. -/
def kBrow : (⟨S1x48, .f32⟩ : BufTy).Contents (Elt Ideal) :=
  shapeCast S1x48 (shapeCast S48 (extractStridedSlice S1x48 ![3, 0] (m ((c.tc : Thread nD τ).loc main_arg6)) slices_S4x48_S1x48_3_0) shapeCasts_S1x48_S48) shapeCasts_S48_S1x48

/-- The factors: the reciprocal square root of one plus the count of edges into each node. -/
def kDis : (⟨S100000, .f32⟩ : BufTy).Contents (Elt Ideal) :=
  Host.rsqrt (addf (Host.scatterAdd scatter_S100000_S1600000x1_S1600000_n_0_0_1
    (broadcastInDim S100000 ![] bcast_S_S100000 (constant (F := Ideal) S_ .f32 0x00000000#32))
    (broadcastInDim S1600000x1 ![0] bcast_S1600000_S1600000x1_0 (kDst m c))
    (broadcastInDim S1600000 ![] bcast_S_S1600000 (constant (F := Ideal) S_ .f32 0x3F800000#32)))
    (broadcastInDim S100000 ![] bcast_S_S100000 (constant (F := Ideal) S_ .f32 0x3F800000#32)))

/-- The factors as a column. -/
def kDcol : (⟨S100000x1, .f32⟩ : BufTy).Contents (Elt Ideal) :=
  shapeCast S100000x1 (kDis m c) shapeCasts_S100000_S100000x1

/-- The projected, scaled node array. -/
def kY : (⟨S100000x48, .f32⟩ : BufTy).Contents (Elt Ideal) :=
  Cert.Gcn.proj (m ((c.tc : Thread nD τ).loc main_arg2)) (m ((c.tc : Thread nD τ).loc main_arg0))
    (m ((c.tc : Thread nD τ).loc main_arg3)) (kWt m c) (kDcol m c)

/-- The zero array the aggregation starts from. -/
def kZero : (⟨S100000x48, .f32⟩ : BufTy).Contents (Elt Ideal) :=
  broadcastInDim S100000x48 ![] bcast_S_S100000x48 (constant (F := Ideal) S_ .f32 0x00000000#32)

/-- The destinations as a column of indices. -/
def kDstCol : (⟨S1600000x1, .i32⟩ : BufTy).Contents (Elt Ideal) :=
  broadcastInDim S1600000x1 ![0] bcast_S1600000_S1600000x1_0 (kDst m c)

/-- The sources, a negative one taken once around, as a column of indices. -/
def kSrcCol : (⟨S1600000x1, .i32⟩ : BufTy).Contents (Elt Ideal) :=
  broadcastInDim S1600000x1 ![0] bcast_S1600000_S1600000x1_0
    (select (cmpi .slt (kSrc m c) (broadcastInDim S1600000 ![] bcast_S_S1600000 (constantI S_ 32 0#32)))
      (addi (kSrc m c) (broadcastInDim S1600000 ![] bcast_S_S1600000 (constantI S_ 32 100000#32)))
      (kSrc m c))

end Terms

/-! ## The contents at the boundaries, buffer by buffer -/

section Boundaries

variable (m : (ℓ : Loc nD τ sig) → Buf (Elt Ideal) ℓ) (ρ : Dev nD → PrngReg) (c : Dev nD)

/-- At launch a buffer holds the launch memory's contents. -/
theorem launch_at (b : Ref sig .tc) : W0 (F := Ideal) m ρ c (Proc.devRef .tc b) = m ((c.tc : Thread nD τ).loc b) := rfl

/-- Before the first grid. -/
theorem entry1_v1 : W1 (F := Ideal) m ρ c (Proc.devRef .tc main_v1) = kSrc m c := by
  refine (first_v1 (W0 m ρ c)).trans ?_
  rw [launch_at m ρ c main_arg1]; rfl
theorem entry1_v3 : W1 (F := Ideal) m ρ c (Proc.devRef .tc main_v3) = kDst m c := by
  refine (first_v3 (W0 m ρ c)).trans ?_
  rw [launch_at m ρ c main_arg1]; rfl
theorem entry1_v6 : W1 (F := Ideal) m ρ c (Proc.devRef .tc main_v6) = kWt m c := by
  refine (first_v6 (W0 m ρ c)).trans ?_
  rw [launch_at m ρ c main_arg5]; rfl
theorem entry1_v9 : W1 (F := Ideal) m ρ c (Proc.devRef .tc main_v9) = kBrow m c := by
  refine (first_v9 (W0 m ρ c)).trans ?_
  rw [launch_at m ρ c main_arg6]; rfl
theorem entry1_v17 : W1 (F := Ideal) m ρ c (Proc.devRef .tc main_v17) = kDcol m c := by
  refine (first_v17 (W0 m ρ c)).trans ?_
  rw [launch_at m ρ c main_arg1]; rfl
theorem entry1_arg0 : W1 (F := Ideal) m ρ c (Proc.devRef .tc main_arg0) = m ((c.tc : Thread nD τ).loc main_arg0) :=
  (first_arg0 (W0 m ρ c)).trans (launch_at m ρ c main_arg0)
theorem entry1_arg2 : W1 (F := Ideal) m ρ c (Proc.devRef .tc main_arg2) = m ((c.tc : Thread nD τ).loc main_arg2) :=
  (first_arg2 (W0 m ρ c)).trans (launch_at m ρ c main_arg2)
theorem entry1_arg3 : W1 (F := Ideal) m ρ c (Proc.devRef .tc main_arg3) = m ((c.tc : Thread nD τ).loc main_arg3) :=
  (first_arg3 (W0 m ρ c)).trans (launch_at m ρ c main_arg3)

end Boundaries

/-! ## Through the two grids -/

section Assembly

variable (m : (ℓ : Loc nD τ sig) → Buf (Elt Ideal) ℓ) (ρ : Dev nD → PrngReg) (c : Dev nD)

/-- After the first grid the index vectors and the bias row, which are none of its arrays, are as before it. -/
theorem exit1_v1 : W2 (F := Ideal) m ρ c (Proc.devRef .tc main_v1) = kSrc m c :=
  (W2_of_ne m ρ c main_v1 (by decide)).trans (entry1_v1 m ρ c)
theorem exit1_v3 : W2 (F := Ideal) m ρ c (Proc.devRef .tc main_v3) = kDst m c :=
  (W2_of_ne m ρ c main_v3 (by decide)).trans (entry1_v3 m ρ c)
theorem exit1_v9 : W2 (F := Ideal) m ρ c (Proc.devRef .tc main_v9) = kBrow m c :=
  (W2_of_ne m ρ c main_v9 (by decide)).trans (entry1_v9 m ρ c)

/-- The column of factors is read by the first grid, never written. -/
theorem exit1_v17 : W2 (F := Ideal) m ρ c (Proc.devRef .tc main_v17) = kDcol m c :=
  calc W2 (F := Ideal) m ρ c (Proc.devRef .tc main_v17)
    _ = W1 m ρ c (Proc.devRef .tc main_v17) :=
        (W2_arr m ρ c 4).trans (((dat0 (V1 m ρ) c).arrAt_in 4 rfl _).trans (A_eq0 (V1 m ρ) c 4))
    _ = kDcol m c := entry1_v17 m ρ c

/-- The first grid's result is the projection of the launch memory's arrays. -/
theorem exit1_v18 (hproj : ∀ (V : (c : Dev nD) → (b : Ref sig .tc) → Buf (Elt Ideal) ((c : Thread nD τ).loc b)) (c : Dev nD),
      (dat0 (F := Ideal) V c).arrAt 5 cfg0.N = Cert.Gcn.proj (V c main_arg2) (V c main_arg0) (V c main_arg3) (V c main_v6) (V c main_v17)) :
    W2 (F := Ideal) m ρ c (Proc.devRef .tc main_v18) = kY m c := by
  have e0 : V1 (F := Ideal) m ρ c main_arg0 = m ((c.tc : Thread nD τ).loc main_arg0) := entry1_arg0 m ρ c
  have e2 : V1 (F := Ideal) m ρ c main_arg2 = m ((c.tc : Thread nD τ).loc main_arg2) := entry1_arg2 m ρ c
  have e3 : V1 (F := Ideal) m ρ c main_arg3 = m ((c.tc : Thread nD τ).loc main_arg3) := entry1_arg3 m ρ c
  have e6 : V1 (F := Ideal) m ρ c main_v6 = kWt m c := entry1_v6 m ρ c
  have e17 : V1 (F := Ideal) m ρ c main_v17 = kDcol m c := entry1_v17 m ρ c
  refine (W2_arr m ρ c 5).trans ?_
  refine (hproj (V1 m ρ) c).trans ?_
  rw [e0, e2, e3, e6, e17]
  rfl

/-- Before the second grid: the aggregated array, -/
theorem entry2_v28 (hproj : ∀ (V : (c : Dev nD) → (b : Ref sig .tc) → Buf (Elt Ideal) ((c : Thread nD τ).loc b)) (c : Dev nD),
      (dat0 (F := Ideal) V c).arrAt 5 cfg0.N = Cert.Gcn.proj (V c main_arg2) (V c main_arg0) (V c main_arg3) (V c main_v6) (V c main_v17)) :
    V3 (F := Ideal) m ρ c main_v28
      = Host.scatterAdd (F := Ideal) (φ := .f32) scatter_S100000x48_S1600000x1_S1600000x48_1_0_0_1 kZero (kDstCol m c)
          (Host.gather gather_S100000x48_S1600000x1_S1600000x48_1_0_n_n_0_1_148 (kY m c) (kSrcCol m c)) := by
  refine (second_v28 (W2 m ρ c)).trans ?_
  rw [exit1_v3 m ρ c, exit1_v18 m ρ c hproj, exit1_v1 m ρ c]
  unfold kZero kDstCol kSrcCol
  rfl

/-- and the projected array, the column of factors and the bias row, which the second stretch leaves alone. -/
theorem entry2_v18 (hproj : ∀ (V : (c : Dev nD) → (b : Ref sig .tc) → Buf (Elt Ideal) ((c : Thread nD τ).loc b)) (c : Dev nD),
      (dat0 (F := Ideal) V c).arrAt 5 cfg0.N = Cert.Gcn.proj (V c main_arg2) (V c main_arg0) (V c main_arg3) (V c main_v6) (V c main_v17)) :
    V3 (F := Ideal) m ρ c main_v18 = kY m c :=
  (second_v18 (W2 m ρ c)).trans (exit1_v18 m ρ c hproj)
theorem entry2_v17 : V3 (F := Ideal) m ρ c main_v17 = kDcol m c :=
  (second_v17 (W2 m ρ c)).trans (exit1_v17 m ρ c)
theorem entry2_v9 : V3 (F := Ideal) m ρ c main_v9 = kBrow m c :=
  (second_v9 (W2 m ρ c)).trans (exit1_v9 m ρ c)

/-- THE RESULT: after the second grid the result array is the combination of the aggregated array, the projected
    array, the column of factors and the bias row, each a term of the launch memory. -/
theorem kernel_value (hproj : ∀ (V : (c : Dev nD) → (b : Ref sig .tc) → Buf (Elt Ideal) ((c : Thread nD τ).loc b)) (c : Dev nD),
      (dat0 (F := Ideal) V c).arrAt 5 cfg0.N = Cert.Gcn.proj (V c main_arg2) (V c main_arg0) (V c main_arg3) (V c main_v6) (V c main_v17)) :
    W4 (F := Ideal) m ρ c (Proc.devRef .tc main_v29)
      = Cert.Gcn.comb
          (Host.scatterAdd scatter_S100000x48_S1600000x1_S1600000x48_1_0_0_1 kZero (kDstCol m c)
            (Host.gather gather_S100000x48_S1600000x1_S1600000x48_1_0_n_n_0_1_148 (kY m c) (kSrcCol m c)))
          (kY m c) (kDcol m c) (kBrow m c) := by
  refine (W4_arr m ρ c 4).trans ?_
  refine (Cert.KernelIdeal.CombValue.arr_comb (V3 m ρ) c).trans ?_
  rw [entry2_v28 m ρ c hproj, entry2_v18 m ρ c hproj, entry2_v17 m ρ c, entry2_v9 m ρ c]

end Assembly

end Cert.KernelIdeal.HostValue

end
-- ==== Proof.IndexLaws.lean ====
/-
  Where an edge reads and where it lands.

  A row gather with one start index per edge reads, for edge e, the row  min (toNat idx[e]) (N - 1)  of its operand
  (the start index is read as a signed integer and clamped into the operand); an accumulating scatter with one index
  per edge adds edge e's update into row  idx[e]  exactly when  0 <= idx[e] < N  as a signed integer, and drops it
  otherwise (no clamping).  Stated for the vector forms ([N] operand) and the row forms ([N, 48] operand, the feature
  coordinate carried along unchanged).
-/
import Idealize.ShloMosaic.PureOps.Ideal
import Idealize.ShloMosaic.Lib.ValueIdx

noncomputable section

namespace Cert.Gcn

open Idealize.ShloMosaic Idealize.ShloMosaic.ValueIdx

abbrev TNx48 : Shape := ⟨2, ![100000, 48]⟩
abbrev TN : Shape := ⟨1, ![100000]⟩
abbrev TE : Shape := ⟨1, ![1600000]⟩
abbrev TEx1 : Shape := ⟨2, ![1600000, 1]⟩
abbrev TEx48 : Shape := ⟨2, ![1600000, 48]⟩

/-- Accumulating scatter of [E, 48] updates into [N, 48] rows, one row index per edge. -/
abbrev scatRows (wf : ScatterDims.WF TNx48 TEx1 TEx48 [1] [0] [0] 1) : ScatterDims TNx48 TEx1 TEx48 where
  updateWindowDims := [1]
  insertedWindowDims := [0]
  scatterDimsToOperandDims := [0]
  indexVectorDim := 1
  wf := wf

/-- Accumulating scatter of [E] updates into an [N] vector, one index per edge. -/
abbrev scatVec (wf : ScatterDims.WF TN TEx1 TE [] [0] [0] 1) : ScatterDims TN TEx1 TE where
  updateWindowDims := []
  insertedWindowDims := [0]
  scatterDimsToOperandDims := [0]
  indexVectorDim := 1
  wf := wf

/-- Gather of whole rows of an [N, 48] operand, one row index per edge. -/
abbrev gathRows (wf : GatherDims.WF TNx48 TEx1 TEx48 [1] [0] [] [0] [] 1 ![1, 48]) : GatherDims TNx48 TEx1 TEx48 where
  offsetDims := [1]
  collapsedSliceDims := [0]
  operandBatchingDims := []
  startIndicesBatchingDims := []
  startIndexMap := [0]
  indexVectorDim := 1
  sliceSizes := ![1, 48]
  wf := wf

/-- Gather of entries of an [N] operand, one index per edge. -/
abbrev gathVec (wf : GatherDims.WF TN TEx1 TE [] [0] [] [0] [] 1 ![1]) : GatherDims TN TEx1 TE where
  offsetDims := []
  collapsedSliceDims := [0]
  operandBatchingDims := []
  startIndicesBatchingDims := []
  startIndexMap := [0]
  indexVectorDim := 1
  sliceSizes := ![1]
  wf := wf

/-! ## The row scatter -/

theorem scatRows_start0 (wf) {w : Nat} (j : TEx48.Idx) (idx : IVec TEx1 w) :
    (scatRows wf).start j idx 0 = (idx (ix2 (j 0) (0 : Fin 1))).toInt := by
  unfold ScatterDims.start
  rw [dif_pos (show (0 : Fin 2) ∈ (scatRows wf).scatterDimsToOperandDims from List.mem_singleton.mpr rfl)]
  have hsi : (scatRows wf).siIdx j ⟨List.idxOf (0 : Fin 2) (scatRows wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

theorem scatRows_start1 (wf) {w : Nat} (j : TEx48.Idx) (idx : IVec TEx1 w) : (scatRows wf).start j idx 1 = 0 := by
  unfold ScatterDims.start
  rw [dif_neg (show (1 : Fin 2) ∉ ([0] : List (Fin 2)) by decide)]

theorem scatRows_window0 (wf) (j : TEx48.Idx) : (scatRows wf).window j 0 = 0 := by
  unfold ScatterDims.window
  rw [dif_neg (show (0 : Fin 2) ∉ TNx48.kept ([0] : List (Fin 2)) by decide)]

theorem scatRows_window1 (wf) (j : TEx48.Idx) : (scatRows wf).window j 1 = (j 1).val := by
  unfold ScatterDims.window
  rw [dif_pos (show (1 : Fin 2) ∈ TNx48.kept ([0] : List (Fin 2)) by decide)]
  rfl

/-- Edge-feature update (e, f') lands on (r, f) exactly when the edge's index, read signed, is r and f' = f. -/
theorem scatRows_resultIdx?_iff (wf) {w : Nat} (j : TEx48.Idx) (idx : IVec TEx1 w) (i : TNx48.Idx) :
    (scatRows wf).resultIdx? j idx = some i ↔
      (idx (ix2 (j 0) (0 : Fin 1))).toInt = ((i 0).val : ℤ) ∧ (j 1).val = (i 1).val := by
  have hs0 := scatRows_start0 wf j idx
  have hs1 := scatRows_start1 wf j idx
  have hw0 := scatRows_window0 wf j
  have hw1 := scatRows_window1 wf j
  have hi0 : (i 0).val < 100000 := (i 0).isLt
  have hi1 : (i 1).val < 48 := (i 1).isLt
  have hj1 : (j 1).val < 48 := (j 1).isLt
  unfold ScatterDims.resultIdx?
  constructor
  · intro h
    split at h
    · rename_i hall
      have hf := Option.some.inj h
      have h0 : ((scatRows wf).start j idx 0 + ((scatRows wf).window j 0 : ℤ)).toNat = (i 0).val :=
        congrArg (fun f : TNx48.Idx => (f 0).val) hf
      have h1 : ((scatRows wf).start j idx 1 + ((scatRows wf).window j 1 : ℤ)).toNat = (i 1).val :=
        congrArg (fun f : TNx48.Idx => (f 1).val) hf
      have ha0 := (hall 0).1
      rw [hs0, hw0] at h0 ha0
      rw [hs1, hw1] at h1
      constructor <;> omega
    · exact absurd h (by simp)
  · rintro ⟨h0, h1⟩
    have hall : ∀ a, 0 ≤ (scatRows wf).start j idx a + ((scatRows wf).window j a : ℤ) ∧
        (scatRows wf).start j idx a + ((scatRows wf).window j a : ℤ) < ((TNx48.size a : ℕ) : ℤ) := by
      refine Fin.forall_fin_two.mpr ⟨?_, ?_⟩
      · rw [hs0, hw0]; show _ ∧ _ < ((100000 : ℕ) : ℤ); omega
      · rw [hs1, hw1]; show _ ∧ _ < ((48 : ℕ) : ℤ); omega
    rw [dif_pos hall]
    refine congrArg some (funext fun a => Fin.ext ?_)
    revert a
    refine Fin.forall_fin_two.mpr ⟨?_, ?_⟩
    · show ((scatRows wf).start j idx 0 + ((scatRows wf).window j 0 : ℤ)).toNat = (i 0).val
      rw [hs0, hw0]; omega
    · show ((scatRows wf).start j idx 1 + ((scatRows wf).window j 1 : ℤ)).toNat = (i 1).val
      rw [hs1, hw1]; omega

/-! ## The vector scatter -/

theorem scatVec_start0 (wf) {w : Nat} (j : TE.Idx) (idx : IVec TEx1 w) :
    (scatVec wf).start j idx 0 = (idx (ix2 (j 0) (0 : Fin 1))).toInt := by
  unfold ScatterDims.start
  rw [dif_pos (show (0 : Fin 1) ∈ (scatVec wf).scatterDimsToOperandDims from List.mem_singleton.mpr rfl)]
  have hsi : (scatVec wf).siIdx j ⟨List.idxOf (0 : Fin 1) (scatVec wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

theorem scatVec_window0 (wf) (j : TE.Idx) : (scatVec wf).window j 0 = 0 := by
  unfold ScatterDims.window
  rw [dif_neg (show (0 : Fin 1) ∉ TN.kept ([0] : List (Fin 1)) by decide)]

/-- Edge e's update lands on entry r exactly when the edge's index, read signed, is r. -/
theorem scatVec_resultIdx?_iff (wf) {w : Nat} (j : TE.Idx) (idx : IVec TEx1 w) (i : TN.Idx) :
    (scatVec wf).resultIdx? j idx = some i ↔ (idx (ix2 (j 0) (0 : Fin 1))).toInt = ((i 0).val : ℤ) := by
  have hs0 := scatVec_start0 wf j idx
  have hw0 := scatVec_window0 wf j
  have hi0 : (i 0).val < 100000 := (i 0).isLt
  unfold ScatterDims.resultIdx?
  constructor
  · intro h
    split at h
    · rename_i hall
      have hf := Option.some.inj h
      have h0 : ((scatVec wf).start j idx 0 + ((scatVec wf).window j 0 : ℤ)).toNat = (i 0).val :=
        congrArg (fun f : TN.Idx => (f 0).val) hf
      have ha0 := (hall 0).1
      rw [hs0, hw0] at h0 ha0
      omega
    · exact absurd h (by simp)
  · intro h0
    have hall : ∀ a, 0 ≤ (scatVec wf).start j idx a + ((scatVec wf).window j a : ℤ) ∧
        (scatVec wf).start j idx a + ((scatVec wf).window j a : ℤ) < ((TN.size a : ℕ) : ℤ) := by
      intro a
      obtain rfl : a = 0 := Subsingleton.elim _ _
      rw [hs0, hw0]; show _ ∧ _ < ((100000 : ℕ) : ℤ); omega
    rw [dif_pos hall]
    refine congrArg some (funext fun a => Fin.ext ?_)
    obtain rfl : a = 0 := Subsingleton.elim _ _
    show ((scatVec wf).start j idx 0 + ((scatVec wf).window j 0 : ℤ)).toNat = (i 0).val
    rw [hs0, hw0]; omega

/-! ## The gathers -/

/-- The row an edge reads: its start index read signed, clamped into the operand. -/
def rowOf {w : Nat} (idx : IVec TEx1 w) (e : Fin 1600000) : Fin 100000 :=
  ⟨min (idx (ix2 e (0 : Fin 1))).toInt.toNat (100000 - 1), by omega⟩

theorem gathVec_operandIdx (wf) {w : Nat} (j : TE.Idx) (idx : IVec TEx1 w) :
    (gathVec wf).operandIdx j idx = ix1 (rowOf idx (j 0)) := by
  funext a
  obtain rfl : a = 0 := Subsingleton.elim _ _
  refine Fin.ext ?_
  show (gathVec wf).start j idx 0 + (gathVec wf).batchCoord j 0 + (gathVec wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gathVec wf).startIndexMap from List.mem_singleton.mpr rfl)]
  have hsi : (gathVec wf).siIdx j ⟨List.idxOf (0 : Fin 1) (gathVec wf).startIndexMap,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

theorem gathRows_operandIdx (wf) {w : Nat} (j : TEx48.Idx) (idx : IVec TEx1 w) :
    (gathRows wf).operandIdx j idx = ix2 (rowOf idx (j 0)) (j 1) := by
  funext a
  refine Fin.ext ?_
  revert a
  refine Fin.forall_fin_two.mpr ⟨?_, ?_⟩
  · show (gathRows wf).start j idx 0 + (gathRows wf).batchCoord j 0 + (gathRows wf).offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gathRows wf).startIndexMap from List.mem_singleton.mpr rfl)]
    have hsi : (gathRows wf).siIdx j ⟨List.idxOf (0 : Fin 2) (gathRows wf).startIndexMap,
        List.idxOf_lt_length_iff.2 (List.mem_singleton.mpr rfl)⟩ = ix2 (j 0) (0 : Fin 1) := by
      funext b; refine Fin.ext ?_
      match b with
      | ⟨0, _⟩ => rfl
      | ⟨1, _⟩ => rfl
    rw [hsi]
    rfl
  · show (gathRows wf).start j idx 1 + (gathRows wf).batchCoord j 1 + (gathRows wf).offCoord j 1 = _
    rw [GatherDims.batchCoord_eq_zero _ _ _ List.not_mem_nil]
    unfold GatherDims.start GatherDims.offCoord
    rw [dif_neg (show (1 : Fin 2) ∉ ([0] : List (Fin 2)) by decide),
      dif_pos (show (1 : Fin 2) ∈ TNx48.kept (([0] : List (Fin 2)) ++ []) by decide)]
    simp only [Nat.zero_add, Nat.add_zero]
    rfl

end Cert.Gcn

end
-- ==== Proof.LayoutReads.lean ====
/-
  The host-side layout operations of the layer, read at an index, for the layer's literal shapes (N = 100000 nodes,
  E = 1600000 edges, 48 features): a scalar splat, a vector as a one-lane column, a column broadcast across lanes, a
  row broadcast down the rows; and the index normalisation of a gather — a negative index wraps once by N.
-/
import proofs.«134983_j39917426049337_2_alg».proof.Proof.IndexLaws
import Idealize.ShloMosaic.Lib.ValueIdx
import Idealize.ShloMosaic.Lib.Pipeline.Value

noncomputable section

namespace Cert.Gcn

open Idealize.ShloMosaic Idealize.ShloMosaic.ValueIdx

abbrev TNx1 : Shape := ⟨2, ![100000, 1]⟩
abbrev T1x48 : Shape := ⟨2, ![1, 48]⟩
abbrev T48 : Shape := ⟨1, ![48]⟩
abbrev T0 : Shape := ⟨0, ![]⟩

section Layout
variable {α : Type}

/-- A scalar broadcast to any shape reads the scalar. -/
theorem splat_apply {t : Shape} (h : T0.BroadcastsInDim t (![] : Fin 0 → Fin t.rank)) (x : T0.Idx → α) (j : t.Idx) :
    broadcastInDim t ![] h x j = x ix0 :=
  broadcastInDim_apply _ _ _ _ ix0 (fun a => a.elim0)

/-- An [E] array as an [E, 1] column reads the array's entry of the row. -/
theorem colE_apply (hb : TE.BroadcastsInDim TEx1 (![0] : Fin 1 → Fin TEx1.rank)) (v : TE.Idx → α) (e : Fin 1600000)
    (u : Fin 1) : broadcastInDim TEx1 ![0] hb v (ix2 e u) = v (ix1 e) :=
  broadcastInDim_apply _ _ _ _ (ix1 e) (fun a => by
    obtain rfl : a = 0 := Subsingleton.elim _ _
    show e.val = if (1600000 : ℕ) = 1 then 0 else e.val
    rw [if_neg (by decide)])

/-- An [E, 1] column broadcast across 48 lanes reads the column's entry of the row. -/
theorem lanesE_apply (hb : TEx1.BroadcastsInDim TEx48 (![0, 1] : Fin 2 → Fin TEx48.rank)) (v : TEx1.Idx → α)
    (e : Fin 1600000) (g : Fin 48) : broadcastInDim TEx48 ![0, 1] hb v (ix2 e g) = v (ix2 e (0 : Fin 1)) :=
  broadcastInDim_apply _ _ _ _ (ix2 e (0 : Fin 1)) (fun a => by
    revert a
    refine Fin.forall_fin_two.mpr ⟨?_, ?_⟩
    · show e.val = if (1600000 : ℕ) = 1 then 0 else e.val
      rw [if_neg (by decide)]
    · show (0 : ℕ) = if (1 : ℕ) = 1 then 0 else g.val
      rw [if_pos rfl])

/-- An [N] array as an [N, 1] column reads the array's entry of the row. -/
theorem colN_apply (hb : TN.BroadcastsInDim TNx1 (![0] : Fin 1 → Fin TNx1.rank)) (v : TN.Idx → α) (r : Fin 100000)
    (u : Fin 1) : broadcastInDim TNx1 ![0] hb v (ix2 r u) = v (ix1 r) :=
  broadcastInDim_apply _ _ _ _ (ix1 r) (fun a => by
    obtain rfl : a = 0 := Subsingleton.elim _ _
    show r.val = if (100000 : ℕ) = 1 then 0 else r.val
    rw [if_neg (by decide)])

/-- An [N, 1] column broadcast across 48 lanes reads the column's entry of the row. -/
theorem lanesN_apply (hb : TNx1.BroadcastsInDim TNx48 (![0, 1] : Fin 2 → Fin TNx48.rank)) (v : TNx1.Idx → α)
    (r : Fin 100000) (f : Fin 48) : broadcastInDim TNx48 ![0, 1] hb v (ix2 r f) = v (ix2 r (0 : Fin 1)) :=
  broadcastInDim_apply _ _ _ _ (ix2 r (0 : Fin 1)) (fun a => by
    revert a
    refine Fin.forall_fin_two.mpr ⟨?_, ?_⟩
    · show r.val = if (100000 : ℕ) = 1 then 0 else r.val
      rw [if_neg (by decide)]
    · show (0 : ℕ) = if (1 : ℕ) = 1 then 0 else f.val
      rw [if_pos rfl])

/-- A [48] vector as a [1, 48] row reads the vector's entry of the lane. -/
theorem row48_apply (hb : T48.BroadcastsInDim T1x48 (![1] : Fin 1 → Fin T1x48.rank)) (v : T48.Idx → α) (u : Fin 1)
    (f : Fin 48) : broadcastInDim T1x48 ![1] hb v (ix2 u f) = v (ix1 f) :=
  broadcastInDim_apply _ _ _ _ (ix1 f) (fun a => by
    obtain rfl : a = 0 := Subsingleton.elim _ _
    show f.val = if (48 : ℕ) = 1 then 0 else f.val
    rw [if_neg (by decide)])

/-- A [1, 48] row broadcast down N rows reads the row's entry of the lane. -/
theorem rowsN_apply (hb : T1x48.BroadcastsInDim TNx48 (![0, 1] : Fin 2 → Fin TNx48.rank)) (v : T1x48.Idx → α)
    (r : Fin 100000) (f : Fin 48) : broadcastInDim TNx48 ![0, 1] hb v (ix2 r f) = v (ix2 (0 : Fin 1) f) :=
  broadcastInDim_apply _ _ _ _ (ix2 (0 : Fin 1) f) (fun a => by
    revert a
    refine Fin.forall_fin_two.mpr ⟨?_, ?_⟩
    · show (0 : ℕ) = if (1 : ℕ) = 1 then 0 else r.val
      rw [if_pos rfl]
    · show f.val = if (48 : ℕ) = 1 then 0 else f.val
      rw [if_neg (by decide)])

end Layout

/-! ## Index normalisation -/

/-- A negative index wraps once by the number of nodes (32-bit two's complement words). -/
def wrap (v : BitVec 32) : BitVec 32 := Scalar.select (IntOp.cmpi .slt v 0#32) (IntOp.addi v 100000#32) v

/-- The wrapped index array read at an edge. -/
theorem wrapArr_apply (hb : T0.BroadcastsInDim TE (![] : Fin 0 → Fin TE.rank)) (v : IVec TE 32) (e : Fin 1600000) :
    select (cmpi .slt v (broadcastInDim TE ![] hb (constantI T0 32 0#32)))
      (addi v (broadcastInDim TE ![] hb (constantI T0 32 100000#32))) v (ix1 e) = wrap (v (ix1 e)) := by
  show Scalar.select (IntOp.cmpi .slt (v (ix1 e)) (broadcastInDim TE ![] hb (constantI T0 32 0#32) (ix1 e)))
      (IntOp.addi (v (ix1 e)) (broadcastInDim TE ![] hb (constantI T0 32 100000#32) (ix1 e))) (v (ix1 e)) = _
  rw [splat_apply, splat_apply]
  rfl

/-- A nonnegative index is left alone. -/
theorem wrap_of_nonneg (v : BitVec 32) (hv : 0 ≤ v.toInt) : wrap v = v := by
  unfold wrap IntOp.cmpi
  have h : v.slt 0#32 = false := by
    rw [BitVec.slt]
    simp only [BitVec.toInt_zero, decide_eq_false_iff_not, not_lt]
    exact hv
  simp only [h]
  rfl

/-- The row an edge reads depends on the start-index array only through the edge's own entry. -/
theorem rowOf_congr {w : Nat} (idx idx' : IVec TEx1 w) (e : Fin 1600000)
    (h : idx (ix2 e (0 : Fin 1)) = idx' (ix2 e (0 : Fin 1))) : rowOf idx e = rowOf idx' e := by
  unfold rowOf
  simp only [h]

/-- An index that reads, signed, as the row r is clamped to r. -/
theorem rowOf_eq {w : Nat} (idx : IVec TEx1 w) (e : Fin 1600000) (r : Fin 100000)
    (h : (idx (ix2 e (0 : Fin 1))).toInt = (r.val : ℤ)) : rowOf idx e = r := by
  unfold rowOf
  refine Fin.ext ?_
  show min (idx (ix2 e (0 : Fin 1))).toInt.toNat (100000 - 1) = r.val
  have := r.isLt
  rw [h]
  omega

end Cert.Gcn

end
-- ==== Proof.LayerAlgebra.lean ====
/-
  The algebra of one normalised graph-convolution layer on the extended reals.

  * A factor that is nonnegative and not +inf distributes over a finite sum of extended reals (no finiteness of the
    summands is needed: the products c * x never meet as +inf and -inf unless the x already do).
  * The layer identity: with every incoming edge p of node i carrying the degree factor d2 p = d_i of its target,
        (0 + sum_p a_p (d1_p d2_p)) + w (d_i d_i) + b  =  d_i ((0 + sum_p a_p d1_p) + w d_i) + b .
  * A sum of 48 terms is the sum of its three blocks of 16.
  * A count of ones, plus one, is a positive real; its reciprocal square root is a nonnegative real.
-/
import Idealize.ShloMosaic.PureOps.Ideal
import Idealize.ShloMosaic.PureOps.Ideal.Laws
import Mathlib.Data.EReal.Operations

noncomputable section

namespace Cert.Gcn

open Idealize.ShloMosaic

/-- A nonnegative factor other than +inf distributes over a finite sum of extended reals. -/
theorem mul_sum_of_nonneg_ne_top {ι : Type*} (s : Finset ι) (c : EReal) (h0 : 0 ≤ c) (ht : c ≠ ⊤) (f : ι → EReal) :
    c * ∑ i ∈ s, f i = ∑ i ∈ s, c * f i := by
  classical
  induction s using Finset.induction_on with
  | empty => simp
  | insert a s ha ih =>
    rw [Finset.sum_insert ha, Finset.sum_insert ha, EReal.left_distrib_of_nonneg_of_ne_top h0 ht, ih]

/-- The layer identity at one node: the target's degree factor comes out of the sum over incoming edges and out of the
    self term. -/
theorem layer_eq {ι : Type*} (s : Finset ι) (a d1 d2 : ι → EReal) (di w b : EReal) (h0 : 0 ≤ di) (ht : di ≠ ⊤)
    (hd2 : ∀ p ∈ s, d2 p = di) :
    ((0 + ∑ p ∈ s, a p * (d1 p * d2 p)) + w * (di * di)) + b
      = di * ((0 + ∑ p ∈ s, a p * d1 p) + w * di) + b := by
  refine congrArg (· + b) ?_
  rw [zero_add, zero_add, EReal.left_distrib_of_nonneg_of_ne_top h0 ht, mul_sum_of_nonneg_ne_top s di h0 ht]
  refine congrArg₂ (· + ·) (Finset.sum_congr rfl fun p hp => ?_) ?_
  · rw [hd2 p hp, ← mul_assoc, mul_comm]
  · rw [← mul_assoc, mul_comm]

/-- A sum over 48 indices is the sum over its three consecutive blocks of 16. -/
theorem sum_48_blocks {M : Type*} [AddCommMonoid M] (g : Fin 48 → M) :
    ∑ k : Fin 48, g k
      = (∑ k : Fin 16, g ⟨k.val, by omega⟩ + ∑ k : Fin 16, g ⟨16 + k.val, by omega⟩)
        + ∑ k : Fin 16, g ⟨32 + k.val, by omega⟩ := by
  show ∑ k : Fin (16 + 16 + 16), g k = _
  rw [Fin.sum_univ_add, Fin.sum_univ_add]
  rfl

/-- A finite sum of ones is a natural number, as an extended real. -/
theorem sum_ones_eq_coe {ι : Type*} (s : Finset ι) : ∃ n : ℕ, ∑ _p ∈ s, (1 : EReal) = ((n : ℝ) : EReal) := by
  classical
  induction s using Finset.induction_on with
  | empty => exact ⟨0, by simp⟩
  | insert a s ha ih =>
    obtain ⟨n, hn⟩ := ih
    refine ⟨n + 1, ?_⟩
    have h1 : (1 : ℝ) + (n : ℝ) = ((n + 1 : ℕ) : ℝ) := by push_cast; ring
    rw [Finset.sum_insert ha, hn, ← EReal.coe_one, ← EReal.coe_add, h1]

/-- The word of the float 1.0 denotes the real one. -/
theorem ofBits_one_f32 : Ideal.ofBits .f32 0x3F800000#32 = 1 := by
  simp [Ideal.ofBits, Ideal.ieee]
  rw [← EReal.coe_mul, ← EReal.coe_one]
  exact congrArg _ (by norm_num)

/-- The reciprocal square root of (a count of ones, plus one) is a nonnegative extended real other than +inf. -/
theorem rsqrt_count_ok {ι : Type*} (s : Finset ι) :
    0 ≤ Ideal.rsqrt ((0 + ∑ _p ∈ s, (1 : EReal)) + 1) ∧ Ideal.rsqrt ((0 + ∑ _p ∈ s, (1 : EReal)) + 1) ≠ ⊤ := by
  obtain ⟨n, hn⟩ := sum_ones_eq_coe s
  have hpos : (0 : ℝ) < (n : ℝ) + 1 := by positivity
  rw [zero_add, hn, ← EReal.coe_one, ← EReal.coe_add, Ideal.rsqrt_coe, if_neg (not_lt.mpr hpos.le), if_neg hpos.ne']
  refine ⟨?_, EReal.coe_ne_top _⟩
  exact_mod_cast inv_nonneg.mpr (Real.sqrt_nonneg _)

end Cert.Gcn

end
-- ==== Proof.RefLayer.lean ====
/-
  The reference's last layer, read index by index, is the kernel's two-pass form.

  The reference computes, at node r and feature f,
      ( 0 + sum over edge-features (e, f) landing on (r, f) of  xw[s_e, f] * (dis[s_e] * dis[t_e]) )  +  xw[r, f] * (dis[r] * dis[r])  +  b[f]
  where xw = [x | h | q] . wt (one product of 48 terms), s_e is edge e's source row (its index wrapped once if negative,
  then clamped into the node range) and t_e its target row read the same way.  An edge lands on row r exactly when its
  target index, read signed, IS r; then the index is nonnegative, wrapping leaves it alone, clamping leaves it alone, and
  dis[t_e] = dis[r].  So the factor dis[r] is common to every term, and since dis[r] is a nonnegative real it comes out
  of the sum:
      dis[r] * ( (0 + sum of (xw[s_e, f] * dis[s_e])) + xw[r, f] * dis[r] ) + b[f] ,
  the combination of the scaled projection y[n, f] = xw[n, f] * dis[n] gathered along the edges and accumulated.
  The product of 48 terms is the sum of the three products of 16 terms.
-/
import proofs.«134983_j39917426049337_2_alg».proof.Proof.Gen.ReferenceIdeal
import proofs.«134983_j39917426049337_2_alg».proof.Proof.Spec
import proofs.«134983_j39917426049337_2_alg».proof.Proof.IndexLaws
import proofs.«134983_j39917426049337_2_alg».proof.Proof.LayoutReads
import proofs.«134983_j39917426049337_2_alg».proof.Proof.LayerAlgebra
import Idealize.ShloMosaic.PureOps.Ideal.Laws
import Idealize.ShloMosaic.Lib.ValueIdx
import Idealize.ShloMosaic.Lib.Pipeline.Value

noncomputable section

namespace Cert.ReferenceIdeal.RefValue

open Idealize.ShloMosaic Idealize.ShloMosaic.ValueIdx Cert.ReferenceIdeal Cert.ReferenceIdeal.Gen

/-! ## The product of 48 terms -/

/-- Row r of [x | h | q] times column f of wt, as the three products of 16 terms. -/
def rowDot (x h q : FVec Ideal S100000x16 .f32) (wt : FVec Ideal S48x48 .f32) (r : Fin 100000) (f : Fin 48) : EReal :=
  (∑ k : Fin 16, x (ix2 r k) * wt (ix2 (Gcn.blk0 k) f) + ∑ k : Fin 16, h (ix2 r k) * wt (ix2 (Gcn.blk1 k) f))
    + ∑ k : Fin 16, q (ix2 r k) * wt (ix2 (Gcn.blk2 k) f)

theorem projAt_eq (x h q : FVec Ideal S100000x16 .f32) (wt : FVec Ideal S48x48 .f32) (d : FVec Ideal S100000x1 .f32)
    (r : Fin 100000) (f : Fin 48) : Gcn.projAt x h q wt d r f = rowDot x h q wt r f * d (ix2 r (0 : Fin 1)) := rfl

/-- The row [x | h | q] of 48 features. -/
abbrev feat (x h q : FVec Ideal S100000x16 .f32) : FVec Ideal S100000x48 .f32 :=
  concatenate S100000x48 1 [⟨S100000x16, x⟩, ⟨S100000x16, h⟩, ⟨S100000x16, q⟩]
    concatenates_S100000x16_S100000x16_S100000x16_S100000x48_d1

theorem feat_apply0 (x h q : FVec Ideal S100000x16 .f32) (r : Fin 100000) (k : Fin 16) :
    feat x h q (ix2 r (Gcn.blk0 k)) = x (ix2 r k) :=
  concatenate_apply_piece (t := S100000x48) 1 [⟨S100000x16, x⟩, ⟨S100000x16, h⟩, ⟨S100000x16, q⟩]
    concatenates_S100000x16_S100000x16_S100000x16_S100000x48_d1 (ix2 r (Gcn.blk0 k)) 0 (by show (0 : ℕ) < 3; omega) S100000x16 x rfl rfl 0 rfl (ix2 r k)
    (fun b => by revert b; exact Fin.forall_fin_two.mpr ⟨fun _ => rfl, fun hb => absurd rfl hb⟩) (Nat.zero_add _)

theorem feat_apply1 (x h q : FVec Ideal S100000x16 .f32) (r : Fin 100000) (k : Fin 16) :
    feat x h q (ix2 r (Gcn.blk1 k)) = h (ix2 r k) :=
  concatenate_apply_piece (t := S100000x48) 1 [⟨S100000x16, x⟩, ⟨S100000x16, h⟩, ⟨S100000x16, q⟩]
    concatenates_S100000x16_S100000x16_S100000x16_S100000x48_d1 (ix2 r (Gcn.blk1 k)) 1 (by show (1 : ℕ) < 3; omega) S100000x16 h rfl rfl 16 rfl (ix2 r k)
    (fun b => by revert b; exact Fin.forall_fin_two.mpr ⟨fun _ => rfl, fun hb => absurd rfl hb⟩) rfl

theorem feat_apply2 (x h q : FVec Ideal S100000x16 .f32) (r : Fin 100000) (k : Fin 16) :
    feat x h q (ix2 r (Gcn.blk2 k)) = q (ix2 r k) :=
  concatenate_apply_piece (t := S100000x48) 1 [⟨S100000x16, x⟩, ⟨S100000x16, h⟩, ⟨S100000x16, q⟩]
    concatenates_S100000x16_S100000x16_S100000x16_S100000x48_d1 (ix2 r (Gcn.blk2 k)) 2 (by show (2 : ℕ) < 3; omega) S100000x16 q rfl rfl 32 rfl (ix2 r k)
    (fun b => by revert b; exact Fin.forall_fin_two.mpr ⟨fun _ => rfl, fun hb => absurd rfl hb⟩) rfl

/-- The host's product of an [N, 48] by a [48, 48] matrix at an index: the sum over the contracted coordinate. -/
theorem dot_apply (l : FVec Ideal S100000x48 .f32) (w : FVec Ideal S48x48 .f32) (r : Fin 100000) (f : Fin 48) :
    Host.dotGeneral (F := Ideal) dot_S100000x48_S48x48_S100000x48_1_0_0_1_n_n none l w (ix2 r f)
      = ∑ k : Fin 48, l (ix2 r k) * w (ix2 k f) := by
  simp only [Host.dotGeneral]
  rw [Ideal.dotGeneral_apply]
  rw [← Equiv.sum_comp (contrEquiv1 dot_S100000x48_S48x48_S100000x48_1_0_0_1_n_n 48 rfl rfl).symm]
  refine Finset.sum_congr rfl fun k _ => ?_
  have hl : dot_S100000x48_S48x48_S100000x48_1_0_0_1_n_n.lhsIdx (ix2 r f)
      ((contrEquiv1 dot_S100000x48_S48x48_S100000x48_1_0_0_1_n_n 48 rfl rfl).symm k) = ix2 r k := by
    funext a; refine Fin.ext ?_
    match a with
    | ⟨0, _⟩ => rfl
    | ⟨1, _⟩ =>
      exact (DotDims.lhsIdx_val_of_single _ (cl := (1 : Fin 2)) rfl _ _).trans
        (contrEquiv1_symm_val dot_S100000x48_S48x48_S100000x48_1_0_0_1_n_n 48 rfl rfl k)
  have hr : dot_S100000x48_S48x48_S100000x48_1_0_0_1_n_n.rhsIdx (ix2 r f)
      ((contrEquiv1 dot_S100000x48_S48x48_S100000x48_1_0_0_1_n_n 48 rfl rfl).symm k) = ix2 k f := by
    funext a; refine Fin.ext ?_
    match a with
    | ⟨1, _⟩ => rfl
    | ⟨0, _⟩ =>
      exact (DotDims.rhsIdx_val_of_single _ (cr := (0 : Fin 2)) rfl _ _).trans
        (contrEquiv1_symm_val dot_S100000x48_S48x48_S100000x48_1_0_0_1_n_n 48 rfl rfl k)
  rw [hl, hr]

/-- The reference's projected node array. -/
abbrev xwOf (x h q : FVec Ideal S100000x16 .f32) (wt : FVec Ideal S48x48 .f32) : FVec Ideal S100000x48 .f32 :=
  Host.dotGeneral (F := Ideal) dot_S100000x48_S48x48_S100000x48_1_0_0_1_n_n none (feat x h q) wt

/-- One product of 48 terms is the three products of 16. -/
theorem xw_apply (x h q : FVec Ideal S100000x16 .f32) (wt : FVec Ideal S48x48 .f32) (r : Fin 100000) (f : Fin 48) :
    xwOf x h q wt (ix2 r f) = rowDot x h q wt r f := by
  unfold xwOf
  rw [dot_apply, Gcn.sum_48_blocks]
  unfold rowDot
  refine congrArg₂ (· + ·) (congrArg₂ (· + ·) ?_ ?_) ?_
  · exact Finset.sum_congr rfl fun k _ => congrArg (· * _) (feat_apply0 x h q r k)
  · exact Finset.sum_congr rfl fun k _ => congrArg (· * _) (feat_apply1 x h q r k)
  · exact Finset.sum_congr rfl fun k _ => congrArg (· * _) (feat_apply2 x h q r k)

/-! ## Gathers and scatters at an index -/

theorem gathRows_apply {α : Type} (wf) (X : S100000x48.Idx → α) (idx : IVec S1600000x1 32) (e : Fin 1600000)
    (g : Fin 48) : Host.gather (Gcn.gathRows wf) X idx (ix2 e g) = X (ix2 (Gcn.rowOf idx e) g) := by
  show X ((Gcn.gathRows wf).operandIdx (ix2 e g) idx) = _
  rw [Gcn.gathRows_operandIdx]
  rfl

theorem gathVec_apply {α : Type} (wf) (X : S100000.Idx → α) (idx : IVec S1600000x1 32) (e : Fin 1600000) :
    Host.gather (Gcn.gathVec wf) X idx (ix1 e) = X (ix1 (Gcn.rowOf idx e)) := by
  show X ((Gcn.gathVec wf).operandIdx (ix1 e) idx) = _
  rw [Gcn.gathVec_operandIdx]

/-! ## The reference's last layer -/

/-- An edge index array as the one-lane column a gather or scatter takes. -/
abbrev colIdx (v : IVec S1600000 32) : IVec S1600000x1 32 :=
  broadcastInDim S1600000x1 ![0] bcast_S1600000_S1600000x1_0 v

/-- The index array with its negative entries wrapped once by the number of nodes. -/
abbrev wrapNeg (v : IVec S1600000 32) : IVec S1600000 32 :=
  select (cmpi .slt v (broadcastInDim S1600000 ![] bcast_S_S1600000 (constantI S_ 32 0#32)))
    (addi v (broadcastInDim S1600000 ![] bcast_S_S1600000 (constantI S_ 32 100000#32))) v

/-- The zero array the accumulation starts from. -/
abbrev zerosNx48 : FVec Ideal S100000x48 .f32 :=
  broadcastInDim S100000x48 ![] bcast_S_S100000x48 (constant (F := Ideal) S_ .f32 0x00000000#32)

theorem colIdx_apply (v : IVec S1600000 32) (e : Fin 1600000) : colIdx v (ix2 e (0 : Fin 1)) = v (ix1 e) :=
  Gcn.colE_apply _ _ e 0

theorem colIdx_wrapNeg_apply (v : IVec S1600000 32) (e : Fin 1600000) :
    colIdx (wrapNeg v) (ix2 e (0 : Fin 1)) = Gcn.wrap (v (ix1 e)) :=
  (Gcn.colE_apply _ _ e 0).trans (Gcn.wrapArr_apply _ v e)

theorem zeros_apply (i : S100000x48.Idx) : zerosNx48 i = 0 :=
  (Gcn.splat_apply _ _ i).trans Ideal.ofBits_zero_f32

/-- The edge messages: the projected source row's entry times the two degree factors, one per edge and feature. -/
def msgArr (x h q : FVec Ideal S100000x16 .f32) (wt : FVec Ideal S48x48 .f32) (dis : FVec Ideal S100000 .f32)
    (src dst : IVec S1600000 32) : FVec Ideal S1600000x48 .f32 :=
  mulf (Host.gather gather_S100000x48_S1600000x1_S1600000x48_1_0_n_n_0_1_148 (xwOf x h q wt) (colIdx (wrapNeg src)))
    (broadcastInDim S1600000x48 ![0, 1] bcast_S1600000x1_S1600000x48_0_1
      (broadcastInDim S1600000x1 ![0] bcast_S1600000_S1600000x1_0
        (mulf (Host.gather gather_S100000_S1600000x1_S1600000_n_0_n_n_0_1_1 dis (colIdx (wrapNeg src)))
          (Host.gather gather_S100000_S1600000x1_S1600000_n_0_n_n_0_1_1 dis (colIdx (wrapNeg dst))))))

/-- The reference's last layer as one term of its arrays: the accumulated edge messages, the self term, the bias. -/
def refLayer (x h q : FVec Ideal S100000x16 .f32) (wt : FVec Ideal S48x48 .f32) (b48 : FVec Ideal S48 .f32)
    (dis : FVec Ideal S100000 .f32) (src dst : IVec S1600000 32) : FVec Ideal S100000x48 .f32 :=
  addf (addf (Host.scatterAdd scatter_S100000x48_S1600000x1_S1600000x48_1_0_0_1 zerosNx48 (colIdx dst)
      (msgArr x h q wt dis src dst))
      (mulf (xwOf x h q wt) (broadcastInDim S100000x48 ![0, 1] bcast_S100000x1_S100000x48_0_1
        (broadcastInDim S100000x1 ![0] bcast_S100000_S100000x1_0 (mulf dis dis)))))
    (broadcastInDim S100000x48 ![0, 1] bcast_S1x48_S100000x48_0_1 (broadcastInDim S1x48 ![1] bcast_S48_S1x48_1 b48))

/-- The message of edge e at feature g. -/
theorem msg_apply (x h q : FVec Ideal S100000x16 .f32) (wt : FVec Ideal S48x48 .f32) (dis : FVec Ideal S100000 .f32)
    (src dst : IVec S1600000 32) (e : Fin 1600000) (g : Fin 48) :
    msgArr x h q wt dis src dst (ix2 e g)
      = rowDot x h q wt (Gcn.rowOf (colIdx (wrapNeg src)) e) g
          * (dis (ix1 (Gcn.rowOf (colIdx (wrapNeg src)) e)) * dis (ix1 (Gcn.rowOf (colIdx (wrapNeg dst)) e))) := by
  unfold msgArr
  rw [mulf_apply, Gcn.lanesE_apply, Gcn.colE_apply, mulf_apply]
  rw [show gather_S100000x48_S1600000x1_S1600000x48_1_0_n_n_0_1_148 = Gcn.gathRows _ from rfl,
    show gather_S100000_S1600000x1_S1600000_n_0_n_n_0_1_1 = Gcn.gathVec _ from rfl]
  rw [gathRows_apply, gathVec_apply, gathVec_apply, xw_apply]

/-- Where an edge-feature lands, in coordinates. -/
theorem lands_iff (wf) (idx : IVec S1600000x1 32) (e : Fin 1600000) (g : Fin 48) (r : Fin 100000) (f : Fin 48) :
    (Gcn.scatRows wf).resultIdx? (ix2 e g) idx = some (ix2 r f)
      ↔ (idx (ix2 e (0 : Fin 1))).toInt = (r.val : ℤ) ∧ g.val = f.val :=
  Gcn.scatRows_resultIdx?_iff wf (ix2 e g) idx (ix2 r f)

/-- An accumulating row scatter at an index: the start entry plus the updates that land there. -/
theorem scatRows_apply (wf) (Z : FVec Ideal S100000x48 .f32) (idx : IVec S1600000x1 32) (U : FVec Ideal S1600000x48 .f32)
    (i : S100000x48.Idx) :
    Host.scatterAdd (Gcn.scatRows wf) Z idx U i
      = Z i + ∑ p ∈ Finset.univ.filter (fun p : S1600000x48.Idx => (Gcn.scatRows wf).resultIdx? p idx = some i), U p := rfl

/-- The reference's layer at node r, feature f. -/
theorem refLayer_apply (x h q : FVec Ideal S100000x16 .f32) (wt : FVec Ideal S48x48 .f32) (b48 : FVec Ideal S48 .f32)
    (dis : FVec Ideal S100000 .f32) (src dst : IVec S1600000 32) (wf) (r : Fin 100000) (f : Fin 48) :
    refLayer x h q wt b48 dis src dst (ix2 r f)
      = ((0 + ∑ p ∈ Finset.univ.filter (fun p : S1600000x48.Idx => (Gcn.scatRows wf).resultIdx? p (colIdx dst) = some (ix2 r f)),
              msgArr x h q wt dis src dst p)
          + rowDot x h q wt r f * (dis (ix1 r) * dis (ix1 r))) + b48 (ix1 f) := by
  unfold refLayer
  rw [addf_apply, addf_apply, mulf_apply, xw_apply, Gcn.rowsN_apply, Gcn.row48_apply, Gcn.lanesN_apply, Gcn.colN_apply,
    mulf_apply]
  rw [show scatter_S100000x48_S1600000x1_S1600000x48_1_0_0_1 = Gcn.scatRows wf from rfl, scatRows_apply, zeros_apply]

/-- The two-pass form at node r, feature f. -/
theorem twoPass_apply (x h q : FVec Ideal S100000x16 .f32) (wt : FVec Ideal S48x48 .f32)
    (wfS) (wfG) (Z : FVec Ideal S100000x48 .f32) (D S : IVec S1600000x1 32)
    (d : FVec Ideal S100000x1 .f32) (b : FVec Ideal S1x48 .f32) (r : Fin 100000) (f : Fin 48) :
    Gcn.comb (Host.scatterAdd (Gcn.scatRows wfS) Z D (Host.gather (Gcn.gathRows wfG) (Gcn.proj x h q wt d) S))
        (Gcn.proj x h q wt d) d b (ix2 r f)
      = d (ix2 r (0 : Fin 1)) * ((Z (ix2 r f) + ∑ p ∈ Finset.univ.filter (fun p : S1600000x48.Idx => (Gcn.scatRows wfS).resultIdx? p D = some (ix2 r f)),
              Host.gather (Gcn.gathRows wfG) (Gcn.proj x h q wt d) S p)
          + rowDot x h q wt r f * d (ix2 r (0 : Fin 1))) + b (ix2 (0 : Fin 1) f) := by
  rw [Gcn.comb_apply]
  unfold Gcn.combAt
  rw [scatRows_apply, Gcn.proj_apply, projAt_eq]

/-- THE LAYER: the reference's term is the combination of the gathered, accumulated scaled projection — for any
    degree factors that are nonnegative reals, any zero start array, any index columns that read the same words. -/
theorem refLayer_eq (x h q : FVec Ideal S100000x16 .f32) (wt : FVec Ideal S48x48 .f32) (b48 : FVec Ideal S48 .f32)
    (dis : FVec Ideal S100000 .f32) (hdis : ∀ i, 0 ≤ dis i ∧ dis i ≠ ⊤) (src dst : IVec S1600000 32)
    (wfS) (wfG) (Z : FVec Ideal S100000x48 .f32) (hZ : ∀ i, Z i = 0)
    (D S : IVec S1600000x1 32) (hD : ∀ e : Fin 1600000, D (ix2 e (0 : Fin 1)) = dst (ix1 e))
    (hS : ∀ e : Fin 1600000, S (ix2 e (0 : Fin 1)) = Gcn.wrap (src (ix1 e)))
    (d : FVec Ideal S100000x1 .f32) (hd : ∀ r : Fin 100000, d (ix2 r (0 : Fin 1)) = dis (ix1 r))
    (b : FVec Ideal S1x48 .f32) (hb : ∀ f : Fin 48, b (ix2 (0 : Fin 1) f) = b48 (ix1 f)) :
    refLayer x h q wt b48 dis src dst
      = Gcn.comb (Host.scatterAdd (Gcn.scatRows wfS) Z D (Host.gather (Gcn.gathRows wfG) (Gcn.proj x h q wt d) S))
          (Gcn.proj x h q wt d) d b := by
  funext i
  obtain ⟨r, f, rfl⟩ : ∃ (r : Fin 100000) (f : Fin 48), i = ix2 r f := ⟨i 0, i 1, eq_ix2 i⟩
  rw [refLayer_apply x h q wt b48 dis src dst wfS r f, twoPass_apply x h q wt wfS wfG Z D S d b r f, hd, hb, hZ]
  -- the two accumulations run over the same edge-features
  have hfilt : (Finset.univ.filter fun p : S1600000x48.Idx => (Gcn.scatRows wfS).resultIdx? p D = some (ix2 r f))
      = (Finset.univ.filter fun p : S1600000x48.Idx => (Gcn.scatRows wfS).resultIdx? p (colIdx dst) = some (ix2 r f)) :=
    Finset.filter_congr fun p _ => by
      obtain ⟨e, g, rfl⟩ : ∃ (e : Fin 1600000) (g : Fin 48), p = ix2 e g := ⟨p 0, p 1, eq_ix2 p⟩
      rw [lands_iff, lands_iff, hD, colIdx_apply]
  rw [hfilt]
  -- each accumulated term of the two-pass form
  have hterm : ∀ p ∈ (Finset.univ.filter fun p : S1600000x48.Idx => (Gcn.scatRows wfS).resultIdx? p (colIdx dst) = some (ix2 r f)),
      Host.gather (Gcn.gathRows wfG) (Gcn.proj x h q wt d) S p
        = rowDot x h q wt (Gcn.rowOf (colIdx (wrapNeg src)) (p 0)) (p 1) * dis (ix1 (Gcn.rowOf (colIdx (wrapNeg src)) (p 0))) := by
    intro p _
    obtain ⟨e, g, rfl⟩ : ∃ (e : Fin 1600000) (g : Fin 48), p = ix2 e g := ⟨p 0, p 1, eq_ix2 p⟩
    rw [gathRows_apply, Gcn.proj_apply, projAt_eq, hd,
      Gcn.rowOf_congr S (colIdx (wrapNeg src)) e ((hS e).trans (colIdx_wrapNeg_apply src e).symm)]
  rw [Finset.sum_congr rfl hterm]
  have hmsg : ∀ p ∈ (Finset.univ.filter fun p : S1600000x48.Idx => (Gcn.scatRows wfS).resultIdx? p (colIdx dst) = some (ix2 r f)),
      msgArr x h q wt dis src dst p
      = rowDot x h q wt (Gcn.rowOf (colIdx (wrapNeg src)) (p 0)) (p 1)
          * (dis (ix1 (Gcn.rowOf (colIdx (wrapNeg src)) (p 0))) * dis (ix1 (Gcn.rowOf (colIdx (wrapNeg dst)) (p 0)))) := by
    intro p _
    obtain ⟨e, g, rfl⟩ : ∃ (e : Fin 1600000) (g : Fin 48), p = ix2 e g := ⟨p 0, p 1, eq_ix2 p⟩
    exact msg_apply x h q wt dis src dst e g
  rw [Finset.sum_congr rfl hmsg]
  -- an edge that lands on row r has r as its target row
  have hd2 : ∀ p ∈ (Finset.univ.filter fun p : S1600000x48.Idx => (Gcn.scatRows wfS).resultIdx? p (colIdx dst) = some (ix2 r f)),
      (fun p : S1600000x48.Idx => dis (ix1 (Gcn.rowOf (colIdx (wrapNeg dst)) (p 0)))) p = dis (ix1 r) := by
    intro p hp
    obtain ⟨e, g, rfl⟩ : ∃ (e : Fin 1600000) (g : Fin 48), p = ix2 e g := ⟨p 0, p 1, eq_ix2 p⟩
    have hp' := (lands_iff wfS (colIdx dst) e g r f).mp (Finset.mem_filter.mp hp).2
    have htgt : (dst (ix1 e)).toInt = (r.val : ℤ) := by rw [← colIdx_apply dst e]; exact hp'.1
    have hnn : 0 ≤ (dst (ix1 e)).toInt := by rw [htgt]; exact Int.natCast_nonneg _
    have hrow : Gcn.rowOf (colIdx (wrapNeg dst)) e = r :=
      Gcn.rowOf_eq _ _ r (by rw [colIdx_wrapNeg_apply, Gcn.wrap_of_nonneg _ hnn]; exact htgt)
    show dis (ix1 (Gcn.rowOf (colIdx (wrapNeg dst)) e)) = dis (ix1 r)
    rw [hrow]
  exact Gcn.layer_eq
    (Finset.univ.filter fun p : S1600000x48.Idx => (Gcn.scatRows wfS).resultIdx? p (colIdx dst) = some (ix2 r f))
    (fun p : S1600000x48.Idx => rowDot x h q wt (Gcn.rowOf (colIdx (wrapNeg src)) (p 0)) (p 1))
    (fun p : S1600000x48.Idx => dis (ix1 (Gcn.rowOf (colIdx (wrapNeg src)) (p 0))))
    (fun p : S1600000x48.Idx => dis (ix1 (Gcn.rowOf (colIdx (wrapNeg dst)) (p 0))))
    (dis (ix1 r)) (rowDot x h q wt r f) (b48 (ix1 f)) (hdis (ix1 r)).1 (hdis (ix1 r)).2 hd2

end Cert.ReferenceIdeal.RefValue

end
-- ==== Proof.RefRun.lean ====
/-
  The reference's result as the layer of its own arrays: of the four layers the reference evaluates, each from the same
  node features, only the last reaches the result; its weights and bias are the last slices of the stacked ones.
-/
import proofs.«134983_j39917426049337_2_alg».proof.Proof.Gen.ReferenceIdeal.Run
import proofs.«134983_j39917426049337_2_alg».proof.Proof.RefLayer

noncomputable section

namespace Cert.ReferenceIdeal.RefValue

open Idealize.ShloMosaic Idealize.ShloMosaic.TcCoe Idealize.SL.Sem Idealize.ShloMosaic.StableHlo
open Cert.ReferenceIdeal Cert.ReferenceIdeal.Gen Cert.ReferenceIdeal.Value

/-- The last weight matrix, transposed. -/
def refWt (V0 : Valuation τ sig (Elt Ideal)) : FVec Ideal S48x48 .f32 :=
  transpose S48x48 [1, 0] (shapeCast _ (extractStridedSlice S1x48x48 ![3, 0, 0] (V0 (Proc.devRef .tc main_arg5))
    slices_S4x48x48_S1x48x48_3_0_0) shapeCasts_S1x48x48_S48x48) transposes_S48x48_S48x48_1_0

/-- The last bias vector. -/
def refB48 (V0 : Valuation τ sig (Elt Ideal)) : FVec Ideal S48 .f32 :=
  shapeCast _ (extractStridedSlice S1x48 ![3, 0] (V0 (Proc.devRef .tc main_arg6)) slices_S4x48_S1x48_3_0)
    shapeCasts_S1x48_S48

set_option maxRecDepth 8192 in
/-- The result buffer after all the reference's operations is the last layer of the arguments. -/
theorem ref_value (V0 : Valuation τ sig (Elt Ideal)) :
    val5 V0 (Proc.devRef .tc main_v200)
      = refLayer (V0 (Proc.devRef .tc main_arg2)) (V0 (Proc.devRef .tc main_arg0)) (V0 (Proc.devRef .tc main_arg3))
          (refWt V0) (refB48 V0) (res_main_v164 V0) (res_main_v2 V0) (res_main_v4 V0) :=
  (val5_main_v200 V0).trans rfl

end Cert.ReferenceIdeal.RefValue

end
-- ==== Proof.DegreeFactor.lean ====
/-
  The degree factor of a node: the reciprocal square root of (the number of edges whose target index, read signed, is the
  node) plus one.  The count is a natural number, so the factor is a nonnegative real — never +inf, never negative —
  whatever the edge indices are.
-/
import proofs.«134983_j39917426049337_2_alg».proof.Proof.IndexLaws
import proofs.«134983_j39917426049337_2_alg».proof.Proof.LayoutReads
import proofs.«134983_j39917426049337_2_alg».proof.Proof.LayerAlgebra
import Idealize.ShloMosaic.PureOps.Ideal.Laws
import Idealize.ShloMosaic.Lib.ValueIdx

noncomputable section

namespace Cert.Gcn

open Idealize.ShloMosaic Idealize.ShloMosaic.ValueIdx

/-- The degree factors as the programs compute them: ones accumulated at the edges' targets from zero, plus one,
    reciprocal square root. -/
def degFactor (wf : ScatterDims.WF TN TEx1 TE [] [0] [0] 1) (hbN : T0.BroadcastsInDim TN (![] : Fin 0 → Fin TN.rank))
    (hbE : T0.BroadcastsInDim TE (![] : Fin 0 → Fin TE.rank)) (D : IVec TEx1 32) : FVec Ideal TN .f32 :=
  Host.rsqrt (addf (Host.scatterAdd (scatVec wf) (broadcastInDim TN ![] hbN (constant (F := Ideal) T0 .f32 0x00000000#32)) D
      (broadcastInDim TE ![] hbE (constant (F := Ideal) T0 .f32 0x3F800000#32)))
    (broadcastInDim TN ![] hbN (constant (F := Ideal) T0 .f32 0x3F800000#32)))

/-- Ones accumulated from zero by a scatter, whatever the shapes and indices: a natural number at every entry. -/
theorem scatter_ones_count {s si su : Shape} (d : ScatterDims s si su) {w : Nat} (Z : s.Idx → EReal) (idx : IVec si w)
    (U : su.Idx → EReal) (i : s.Idx) (hZ : Z i = 0) (hU : ∀ j, U j = 1) :
    ∃ n : ℕ, Ideal.hostScatterAdd d Z idx U i = ((n : ℝ) : EReal) := by
  unfold Ideal.hostScatterAdd
  rw [hZ, zero_add, Finset.sum_congr rfl fun j _ => hU j]
  exact sum_ones_eq_coe _

/-- The reciprocal square root of a natural number plus one is a nonnegative extended real other than +inf. -/
theorem rsqrt_nat_succ_ok (n : ℕ) :
    0 ≤ Ideal.rsqrt (((n : ℝ) : EReal) + 1) ∧ Ideal.rsqrt (((n : ℝ) : EReal) + 1) ≠ ⊤ := by
  have hpos : (0 : ℝ) < (n : ℝ) + 1 := by positivity
  rw [← EReal.coe_one, ← EReal.coe_add, Ideal.rsqrt_coe, if_neg (not_lt.mpr hpos.le), if_neg hpos.ne']
  refine ⟨?_, EReal.coe_ne_top _⟩
  exact_mod_cast inv_nonneg.mpr (Real.sqrt_nonneg _)

theorem splat_zero_apply {t : Shape} (h : T0.BroadcastsInDim t (![] : Fin 0 → Fin t.rank)) (i : t.Idx) :
    broadcastInDim t ![] h (constant (F := Ideal) T0 .f32 0x00000000#32) i = 0 := by
  rw [splat_apply h, constant_apply, Ideal.ofBits_zero_f32]

theorem splat_one_apply {t : Shape} (h : T0.BroadcastsInDim t (![] : Fin 0 → Fin t.rank)) (i : t.Idx) :
    broadcastInDim t ![] h (constant (F := Ideal) T0 .f32 0x3F800000#32) i = 1 := by
  rw [splat_apply h, constant_apply, ofBits_one_f32]

/-- A degree factor at a node: the reciprocal square root of the accumulated ones plus one. -/
theorem degFactor_apply (wf : ScatterDims.WF TN TEx1 TE [] [0] [0] 1)
    (hbN : T0.BroadcastsInDim TN (![] : Fin 0 → Fin TN.rank)) (hbE : T0.BroadcastsInDim TE (![] : Fin 0 → Fin TE.rank))
    (D : IVec TEx1 32) (i : TN.Idx) :
    degFactor wf hbN hbE D i
      = Ideal.rsqrt (Ideal.hostScatterAdd (scatVec wf)
            (broadcastInDim TN ![] hbN (constant (F := Ideal) T0 .f32 0x00000000#32)) D
            (broadcastInDim TE ![] hbE (constant (F := Ideal) T0 .f32 0x3F800000#32)) i
          + broadcastInDim TN ![] hbN (constant (F := Ideal) T0 .f32 0x3F800000#32) i) := by
  rw [degFactor, Host.rsqrt, Ideal.hostUnary_rsqrt_def, addf_apply, Host.scatterAdd, Ideal.hostScatterAdd_def]

/-- Every degree factor is a nonnegative extended real other than +inf. -/
theorem degFactor_ok (wf : ScatterDims.WF TN TEx1 TE [] [0] [0] 1)
    (hbN : T0.BroadcastsInDim TN (![] : Fin 0 → Fin TN.rank)) (hbE : T0.BroadcastsInDim TE (![] : Fin 0 → Fin TE.rank))
    (D : IVec TEx1 32) (i : TN.Idx) :
    0 ≤ degFactor wf hbN hbE D i ∧ degFactor wf hbN hbE D i ≠ ⊤ := by
  obtain ⟨n, hn⟩ := scatter_ones_count (scatVec wf)
    (broadcastInDim TN ![] hbN (constant (F := Ideal) T0 .f32 0x00000000#32)) D
    (broadcastInDim TE ![] hbE (constant (F := Ideal) T0 .f32 0x3F800000#32)) i
    (splat_zero_apply hbN i) (fun j => splat_one_apply hbE j)
  rw [degFactor_apply, hn, splat_one_apply hbN i]
  exact rsqrt_nat_succ_ok n

end Cert.Gcn

end
-- ==== Proof.Bridge.lean ====
/-
  The two programs end with one array.

  The kernel's result is  comb agg y d b  with  y = proj x h q wt d  and  agg  the rows of y gathered along the edges'
  sources and accumulated at the edges' targets; the reference's is its last layer of the same arrays.  The layer
  identity (the target's degree factor, a nonnegative real, comes out of the sum over a node's incoming edges) makes the
  two equal index by index; here the two programs' arrays are identified — the same slices of the same arguments — and the
  side conditions of the identity are read off the kernel's terms: the start array is zero, the index columns read the
  edge list's words, the factor column reads the factors, the bias row reads the last bias.
-/
import proofs.«134983_j39917426049337_2_alg».proof.Proof.KernelValue
import proofs.«134983_j39917426049337_2_alg».proof.Proof.RefRun
import proofs.«134983_j39917426049337_2_alg».proof.Proof.DegreeFactor
import proofs.«134983_j39917426049337_2_alg».proof.Proof.LibColumnForms
import Idealize.ShloMosaic.Lib.ValueLayout

noncomputable section

namespace Cert.Proof.Bridge

open Idealize.ShloMosaic Idealize.ShloMosaic.ValueIdx Idealize.ShloMosaic.TcCoe Idealize.SL.Sem
open Idealize.ShloMosaic.StableHlo (launchContents)
open Cert.KernelIdeal.HostValue

/-- The kernel's result as a term of its launch memory. -/
def kernelTerm (m : (ℓ : Loc Cert.KernelIdeal.nD Cert.KernelIdeal.τ Cert.KernelIdeal.sig) → Buf (Elt Ideal) ℓ)
    (c : Dev Cert.KernelIdeal.nD) : (⟨Cert.KernelIdeal.S100000x48, .f32⟩ : BufTy).Contents (Elt Ideal) :=
  Cert.Gcn.comb (Host.scatterAdd Cert.KernelIdeal.scatter_S100000x48_S1600000x1_S1600000x48_1_0_0_1 kZero (kDstCol m c)
      (Host.gather Cert.KernelIdeal.gather_S100000x48_S1600000x1_S1600000x48_1_0_n_n_0_1_148 (kY m c) (kSrcCol m c)))
    (kY m c) (kDcol m c) (kBrow m c)

section
variable (m : (ℓ : Loc Cert.KernelIdeal.nD Cert.KernelIdeal.τ Cert.KernelIdeal.sig) → Buf (Elt Ideal) ℓ)
  (c : Dev Cert.KernelIdeal.nD)

/-! ## The side conditions, read off the kernel's terms -/

theorem kZero_apply (i : Cert.KernelIdeal.S100000x48.Idx) : kZero i = 0 :=
  (Cert.Gcn.splat_apply _ _ i).trans Ideal.ofBits_zero_f32

theorem kDstCol_apply (e : Fin 1600000) : kDstCol m c (ix2 e (0 : Fin 1)) = kDst m c (ix1 e) :=
  Cert.Gcn.colE_apply _ _ e 0

theorem kSrcCol_apply (e : Fin 1600000) : kSrcCol m c (ix2 e (0 : Fin 1)) = Cert.Gcn.wrap (kSrc m c (ix1 e)) :=
  (Cert.Gcn.colE_apply _ _ e 0).trans (Cert.Gcn.wrapArr_apply _ _ e)

theorem kDcol_apply (r : Fin 100000) : kDcol m c (ix2 r (0 : Fin 1)) = kDis m c (ix1 r) :=
  Cert.BoxFilter.ColumnForms.shapeCast_a_a1_apply _ _ r 0

theorem kDis_ok (i : Cert.KernelIdeal.S100000.Idx) : 0 ≤ kDis m c i ∧ kDis m c i ≠ ⊤ :=
  Cert.Gcn.degFactor_ok Cert.KernelIdeal.Gen.scatter_S100000_S1600000x1_S1600000_n_0_0_1_wf
    Cert.KernelIdeal.Gen.bcast_S_S100000 Cert.KernelIdeal.Gen.bcast_S_S1600000 (kDstCol m c) i

/-- The last bias vector, of the kernel's memory. -/
def kB48 : (⟨Cert.KernelIdeal.S48, .f32⟩ : BufTy).Contents (Elt Ideal) :=
  shapeCast Cert.KernelIdeal.S48 (extractStridedSlice Cert.KernelIdeal.S1x48 ![3, 0]
    (m ((c.tc : Thread Cert.KernelIdeal.nD Cert.KernelIdeal.τ).loc Cert.KernelIdeal.main_arg6))
    Cert.KernelIdeal.Gen.slices_S4x48_S1x48_3_0) Cert.KernelIdeal.Gen.shapeCasts_S1x48_S48

theorem kBrow_apply (f : Fin 48) : kBrow m c (ix2 (0 : Fin 1) f) = kB48 m c (ix1 f) :=
  shapeCast_a_1a_apply _ _ 0 f

end

/-! ## The reference's arrays are the kernel's -/

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

open Cert.ReferenceIdeal.RefValue Cert.ReferenceIdeal.Value in
/-- From memories that agree on the arguments, the reference's result is the kernel's. -/
theorem ref_eq_kernel
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    val5 (launchContents m' c) (Proc.devRef .tc Cert.ReferenceIdeal.main_v200) = kernelTerm m c := by
  rw [ref_value]
  have e0 : launchContents m' c (Proc.devRef .tc Cert.ReferenceIdeal.main_arg0) = m ((c.tc : Thread Cert.KernelIdeal.nD Cert.KernelIdeal.τ).loc Cert.KernelIdeal.main_arg0) := h0
  have e2 : launchContents m' c (Proc.devRef .tc Cert.ReferenceIdeal.main_arg2) = m ((c.tc : Thread Cert.KernelIdeal.nD Cert.KernelIdeal.τ).loc Cert.KernelIdeal.main_arg2) := h2
  have e3 : launchContents m' c (Proc.devRef .tc Cert.ReferenceIdeal.main_arg3) = m ((c.tc : Thread Cert.KernelIdeal.nD Cert.KernelIdeal.τ).loc Cert.KernelIdeal.main_arg3) := h3
  have eWt : refWt (launchContents m' c) = kWt m c := by
    have e5 : launchContents m' c (Proc.devRef .tc Cert.ReferenceIdeal.main_arg5) = m ((c.tc : Thread Cert.KernelIdeal.nD Cert.KernelIdeal.τ).loc Cert.KernelIdeal.main_arg5) := h5
    unfold refWt kWt
    rw [e5]
  have eB : refB48 (launchContents m' c) = kB48 m c := by
    have e6 : launchContents m' c (Proc.devRef .tc Cert.ReferenceIdeal.main_arg6) = m ((c.tc : Thread Cert.KernelIdeal.nD Cert.KernelIdeal.τ).loc Cert.KernelIdeal.main_arg6) := h6
    unfold refB48 kB48
    rw [e6]
  have e1 : launchContents m' c (Proc.devRef .tc Cert.ReferenceIdeal.main_arg1) = m ((c.tc : Thread Cert.KernelIdeal.nD Cert.KernelIdeal.τ).loc Cert.KernelIdeal.main_arg1) := h1
  have eSrc : res_main_v2 (launchContents m' c) = kSrc m c := by
    unfold res_main_v2 kSrc
    rw [e1]
    rfl
  have eDst : res_main_v4 (launchContents m' c) = kDst m c := by
    unfold res_main_v4 kDst
    rw [e1]
    rfl
  have eDis : res_main_v164 (launchContents m' c) = kDis m c := by
    unfold res_main_v164 kDis
    rw [eDst]
    rfl
  rw [e0, e2, e3, eWt, eB, eSrc, eDst, eDis]
  exact (refLayer_eq _ _ _ _ _ _ (kDis_ok m c) _ _ _ _ kZero kZero_apply (kDstCol m c) (kSrcCol m c)
    (kDstCol_apply m c) (kSrcCol_apply m c) (kDcol m c) (kDcol_apply m c) (kBrow m c) (kBrow_apply m c)).trans rfl

end

end Cert.Proof.Bridge

end
-- ==== Proof.lean ====
/-
  One layer of a normalised graph convolution, computed two ways, gives one array on the extended reals.

  Both programs take node features x, h, q (N = 100000 rows of 16), an edge list (two rows of E = 1600000 signed 32-bit
  indices: sources and targets), four stacked 48 x 48 weight matrices and four stacked bias vectors, and use only the
  last matrix W and the last bias b.  With  xw = [x | h | q] W^T,  deg[n] = 1 + #{edges with target n}  and
  dis = deg^(-1/2),  the reference returns
        out[n, f] = sum over edges e with target n of  xw[s_e, f] (dis[s_e] dis[t_e])  +  xw[n, f] (dis[n] dis[n])  +  b[f]
  (s_e, t_e the rows the gathers read for edge e: the index wrapped once if negative, then clamped into the node range),
  while the kernel scales first,  y[n, f] = xw[n, f] dis[n]  (the product taken as three blocks of 16), accumulates the
  gathered rows  agg[n, f] = sum over edges e with target n of y[s_e, f],  and combines
        out[n, f] = dis[n] (agg[n, f] + y[n, f]) + b[f].
  An edge is accumulated at node n exactly when its target index, read signed, is n; for such an edge t_e = n.  The degree
  is a count plus one, so dis[n] is a nonnegative real and distributes over the sum and the self term whatever extended
  reals the other factors are: no finiteness of the inputs is used.  The pieces: the two dense maps (Spec), where an edge
  reads and lands (IndexLaws, LayoutReads), the algebra (LayerAlgebra, DegreeFactor), the reference's layer (RefLayer,
  RefRun), the kernel's two grids block by block (ProjBlocks, CombBlocks), its run and its array operations (KernelRun,
  KernelValue), and the identification of the two programs' arrays (Bridge).
-/
import proofs.«134983_j39917426049337_2_alg».proof.Defs
import proofs.«134983_j39917426049337_2_alg».proof.Proof.Gen.Kernel
import proofs.«134983_j39917426049337_2_alg».proof.Proof.Gen.Kernel.Skeleton
import proofs.«134983_j39917426049337_2_alg».proof.Proof.Gen.Kernel.Launch
import proofs.«134983_j39917426049337_2_alg».proof.Proof.Gen.Kernel.Points
import proofs.«134983_j39917426049337_2_alg».proof.Proof.Gen.Kernel.Frame
import proofs.«134983_j39917426049337_2_alg».proof.Proof.Gen.KernelIdeal
import proofs.«134983_j39917426049337_2_alg».proof.Proof.Gen.KernelIdeal.Skeleton
import proofs.«134983_j39917426049337_2_alg».proof.Proof.Gen.KernelIdeal.Launch
import proofs.«134983_j39917426049337_2_alg».proof.Proof.Gen.KernelIdeal.Points
import proofs.«134983_j39917426049337_2_alg».proof.Proof.Gen.KernelIdeal.Frame
import proofs.«134983_j39917426049337_2_alg».proof.Proof.Gen.ReferenceIdeal
import proofs.«134983_j39917426049337_2_alg».proof.Proof.Gen.Pre_finite_inputs
import proofs.«134983_j39917426049337_2_alg».proof.Proof.Gen.ReferenceIdeal.Run
import proofs.«134983_j39917426049337_2_alg».proof.Proof.KernelRun
import proofs.«134983_j39917426049337_2_alg».proof.Proof.ProjBlocks
import proofs.«134983_j39917426049337_2_alg».proof.Proof.KernelValue
import proofs.«134983_j39917426049337_2_alg».proof.Proof.Bridge
import Idealize.ShloMosaic.Adequacy
import Idealize.ShloMosaic.Init

noncomputable section

namespace Cert.Proof

open Idealize.ShloMosaic Idealize.SL.Sem

/-- The word-level kernel runs and leaves its arguments as they were. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference runs and leaves its arguments as they were: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- On the extended reals, from memories agreeing on the arguments, the kernel and the reference both run and end with
    the same result array: the kernel's two-pass form of the layer. -/
theorem algebraic : Cert.algebraic_KernelIdeal_ReferenceIdeal := by
  intro m ρ m' ρ' _ hagree
  refine ⟨fun c => Bridge.kernelTerm m c, ?_, ?_⟩
  · exact (θ_run Cert.KernelIdeal.defs _ _).mono
      (fun r h c => ⟨(h c).1.trans
        (Cert.KernelIdeal.HostValue.kernel_value m ρ c Cert.KernelIdeal.ProjValue.arr_proj), (h c).2⟩)
      (Cert.KernelIdeal.RunValue.run_value (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, _, h5, h6⟩ := hagree c
    exact (Cert.ReferenceIdeal.Value.val5_main_v200 _).symm.trans (Bridge.ref_eq_kernel m m' c h0 h1 h2 h3 h5 h6)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
